-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048 : Shape := ⟨2, ![64, 2048]⟩
abbrev S16777216 : Shape := ⟨1, ![16777216]⟩
abbrev S8192 : Shape := ⟨1, ![8192]⟩
abbrev S10x8192 : Shape := ⟨2, ![10, 8192]⟩
abbrev S10 : Shape := ⟨1, ![10]⟩
abbrev S_ : Shape := ⟨0, ![]⟩

class Facts : Prop where
  bcast_S_S64x2048 : S_.BroadcastsInDim S64x2048 (![] : Fin 0 → Fin S64x2048.rank)
  reducesTo_S64x2048_S_d0_1 : S64x2048.ReducesTo [0, 1] S_
  h_S_ : 0 < S_.numel
  bcast_S_S16777216 : S_.BroadcastsInDim S16777216 (![] : Fin 0 → Fin S16777216.rank)
  reducesTo_S16777216_S_d0 : S16777216.ReducesTo [0] S_
  bcast_S_S8192 : S_.BroadcastsInDim S8192 (![] : Fin 0 → Fin S8192.rank)
  reducesTo_S8192_S_d0 : S8192.ReducesTo [0] S_
  bcast_S_S10x8192 : S_.BroadcastsInDim S10x8192 (![] : Fin 0 → Fin S10x8192.rank)
  reducesTo_S10x8192_S_d0_1 : S10x8192.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S10 .f32) (main_v13 : IVec S_ 1) (main_v16 : IVec S10x8192 1) : IVec S_ 1 :=
  let main_c_5 : IVec S_ 1 := constantI S_ 1 1#1
  let main_v17 : IVec S_ 1 := (fun x v => Host.reduce IntOp.andi x v reducesTo_S10x8192_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S64x2048 .f32) (main_arg1 : FVec F S16777216 .f32) (main_arg2 : FVec F S8192 .f32) (main_arg3 : FVec F S10x8192 .f32) (main_arg4 : FVec F S10 .f32) : IVec S_ 1 :=
  let main_v0 : FVec F S64x2048 .f32 := Host.absf main_arg0
  let main_cst : FVec F S_ .f32 := constant S_ .f32 0x7F800000#32
  let main_v1 : FVec F S64x2048 .f32 := broadcastInDim S64x2048 ![] bcast_S_S64x2048 main_cst
  let main_v2 : IVec S64x2048 1 := cmpf .olt main_v0 main_v1
  let main_c : IVec S_ 1 := constantI S_ 1 1#1
  let main_v3 : IVec S_ 1 := (fun x v => Host.reduce IntOp.andi x v reducesTo_S64x2048_S_d0_1 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S10x8192 .f32 := Host.absf main_arg3
  let main_cst_4 : FVec F S_ .f32 := constant S_ .f32 0x7F800000#32
  let main_v15 : FVec F S10x8192 .f32 := broadcastInDim S10x8192 ![] bcast_S_S10x8192 main_cst_4
  let main_v16 : IVec S10x8192 1 := cmpf .olt main_v14 main_v15
  fn_part1 (F := F) main_arg4 main_v13 main_v16
-- ==== Kernel.lean ====
abbrev S64x2048 : Shape := ⟨2, ![64, 2048]⟩
abbrev S16777216 : Shape := ⟨1, ![16777216]⟩
abbrev S8192 : Shape := ⟨1, ![8192]⟩
abbrev S10x8192 : Shape := ⟨2, ![10, 8192]⟩
abbrev S10 : Shape := ⟨1, ![10]⟩
abbrev S1x8192 : Shape := ⟨2, ![1, 8192]⟩
abbrev S1x10 : Shape := ⟨2, ![1, 10]⟩
abbrev S64x10 : Shape := ⟨2, ![64, 10]⟩
abbrev S2097152 : Shape := ⟨1, ![2097152]⟩
abbrev S1x1024 : Shape := ⟨2, ![1, 1024]⟩
abbrev S10x1024 : Shape := ⟨2, ![10, 1024]⟩
abbrev S1024x2048 : Shape := ⟨2, ![1024, 2048]⟩
abbrev S64x1024 : Shape := ⟨2, ![64, 1024]⟩

abbrev nBuf : Space → Nat
  | .hbm => 8
  | .vmem => 9
  | .smem => 0
  | _ => 0

abbrev bufTy : (tb : Table) → Fin (tcTables nBuf tb) → BufTy
  | .hbm, ⟨0, _⟩ => ⟨S64x2048, .f32⟩
  | .hbm, ⟨1, _⟩ => ⟨S16777216, .f32⟩
  | .hbm, ⟨2, _⟩ => ⟨S8192, .f32⟩
  | .hbm, ⟨3, _⟩ => ⟨S10x8192, .f32⟩
  | .hbm, ⟨4, _⟩ => ⟨S10, .f32⟩
  | .hbm, ⟨5, _⟩ => ⟨S1x8192, .f32⟩
  | .hbm, ⟨6, _⟩ => ⟨S1x10, .f32⟩
  | .hbm, ⟨7, _⟩ => ⟨S64x10, .f32⟩
  | .local _ .vmem, ⟨0, _⟩ => ⟨S64x2048, .f32⟩
  | .local _ .vmem, ⟨1, _⟩ => ⟨S2097152, .f32⟩
  | .local _ .vmem, ⟨2, _⟩ => ⟨S2097152, .f32⟩
  | .local _ .vmem, ⟨3, _⟩ => ⟨S1x1024, .f32⟩
  | .local _ .vmem, ⟨4, _⟩ => ⟨S1x1024, .f32⟩
  | .local _ .vmem, ⟨5, _⟩ => ⟨S10x1024, .f32⟩
  | .local _ .vmem, ⟨6, _⟩ => ⟨S10x1024, .f32⟩
  | .local _ .vmem, ⟨7, _⟩ => ⟨S1x10, .f32⟩
  | .local _ .vmem, ⟨8, _⟩ => ⟨S64x10, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_8 : BitVec 32 := 0#32
  let v14 : BitVec 1 := Scalar.cmpi .ne v13 c0_i32_8
  v14

def k0_cond2 (i : grid0.Coords) : BitVec 1 :=
  let arg0 : BitVec 32 := BitVec.ofNat 32 (i 0).val
  let c0_i32_9 : BitVec 32 := 0#32
  let v15 : BitVec 1 := Scalar.cmpi .ne arg0 c0_i32_9
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2097152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S8192_S1x8192 : S8192.ShapeCasts S1x8192
  shapeCasts_S10_S1x10 : S10.ShapeCasts S1x10
  inb_S2097152_S2097152_0 : ∀ a, (![0] : Fin 1 → Nat) a + S2097152.size a ≤ S2097152.size a
  h_S2097152 : 0 < S2097152.numel
  shapeCasts_S2097152_S1024x2048 : S2097152.ShapeCasts S1024x2048
  inb_S64x2048_S64x2048_0_0 : ∀ a, (![0, 0] : Fin 2 → Nat) a + S64x2048.size a ≤ S64x2048.size a
  h_S64x2048 : 0 < S64x2048.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  inb_S10x1024_S10x1024_0_0 : ∀ a, (![0, 0] : Fin 2 → Nat) a + S10x1024.size a ≤ S10x1024.size a
  h_S10x1024 : 0 < S10x1024.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  shapeCasts_S64x10_S64x10 : S64x10.ShapeCasts S64x10
  dot_S64x2048_S1024x2048_S64x1024_1_1_0_0_n_n_wf : DotDims.WF S64x2048 S1024x2048 S64x1024 [1] [1] [0] [0] [] []
  dot_S64x1024_S10x1024_S64x10_1_1_0_0_n_n_wf : DotDims.WF S64x1024 S10x1024 S64x10 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S64x2048.size a
  hwx0_0 : ∀ i : grid0.Coords, EltTy.bits .f32 = 32 ∨ (Rect.block (s := S64x2048) S64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2097152.size a ≤ S16777216.size a
  hwx0_1 : ∀ i : grid0.Coords, EltTy.bits .f32 = 32 ∨ (Rect.block (s := S16777216) S2097152.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10x1024.size a ≤ S10x8192.size a
  hwx0_3 : ∀ i : grid0.Coords, EltTy.bits .f32 = 32 ∨ (Rect.block (s := S10x8192) S10x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x10.size a ≤ S64x10.size a
  hwx0_5 : ∀ i : grid0.Coords, EltTy.bits .f32 = 32 ∨ (Rect.block (s := S64x10) S64x10.size (cc0_transform_5 i) (hinb0_5 i)).WholeWords (EltTy.packing .f32)

variable [Facts₀]

def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf
def dot_S64x1024_S10x1024_S64x10_1_1_0_0_n_n : DotDims S64x1024 S10x1024 S64x10 where
  lhsContracting := [1]
  rhsContracting := [1]
  lhsNonContracting := [0]
  rhsNonContracting := [0]
  lhsBatch := []
  rhsBatch := []
  wf := dot_S64x1024_S10x1024_S64x10_1_1_0_0_n_n_wf

abbrev win0_0 : Pipeline.Window sig grid0 :=
  Pipeline.Window.ofSpec (Memref.whole main_arg0) S64x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2097152.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S64x10.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) && !(k0_cond2 i == 1#1) | ⟨_ + 6, h⟩ => absurd h (Nat.not_lt.2 (Nat.le_add_left _ _))

class Facts : Prop extends Facts₀ where

variable [Facts]
-- ==== ReferenceIdeal.lean ====
abbrev S64x2048 : Shape := ⟨2, ![64, 2048]⟩
abbrev S16777216 : Shape := ⟨1, ![16777216]⟩
abbrev S8192 : Shape := ⟨1, ![8192]⟩
abbrev S10x8192 : Shape := ⟨2, ![10, 8192]⟩
abbrev S10 : Shape := ⟨1, ![10]⟩
abbrev S8192x2048 : Shape := ⟨2, ![8192, 2048]⟩
abbrev S2048 : Shape := ⟨1, ![2048]⟩
abbrev S1x2048 : Shape := ⟨2, ![1, 2048]⟩
abbrev S_ : Shape := ⟨0, ![]⟩
abbrev S16777216x1 : Shape := ⟨2, ![16777216, 1]⟩
abbrev S16777216x2 : Shape := ⟨2, ![16777216, 2]⟩
abbrev S2048x8192 : Shape := ⟨2, ![2048, 8192]⟩
abbrev S64x8192 : Shape := ⟨2, ![64, 8192]⟩
abbrev S1x8192 : Shape := ⟨2, ![1, 8192]⟩
abbrev S8192x10 : Shape := ⟨2, ![8192, 10]⟩
abbrev S64x10 : Shape := ⟨2, ![64, 10]⟩
abbrev S1x10 : Shape := ⟨2, ![1, 10]⟩

abbrev nBuf : Space → Nat
  | .hbm => 49
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S16777216, .f32⟩
  | .hbm, ⟨2, _⟩ => ⟨S8192, .f32⟩
  | .hbm, ⟨3, _⟩ => ⟨S10x8192, .f32⟩
  | .hbm, ⟨4, _⟩ => ⟨S10, .f32⟩
  | .hbm, ⟨5, _⟩ => ⟨S8192, .i32⟩
  | .hbm, ⟨6, _⟩ => ⟨S8192x2048, .i32⟩
  | .hbm, ⟨7, _⟩ => ⟨S16777216, .i32⟩
  | .hbm, ⟨8, _⟩ => ⟨S2048, .i32⟩
  | .hbm, ⟨9, _⟩ => ⟨S1x2048, .i32⟩
  | .hbm, ⟨10, _⟩ => ⟨S8192x2048, .i32⟩
  | .hbm, ⟨11, _⟩ => ⟨S16777216, .i32⟩
  | .hbm, ⟨12, _⟩ => ⟨S_, .f32⟩
  | .hbm, ⟨13, _⟩ => ⟨S8192x2048, .f32⟩
  | .hbm, ⟨14, _⟩ => ⟨S_, .i32⟩
  | .hbm, ⟨15, _⟩ => ⟨S16777216, .i32⟩
  | .hbm, ⟨16, _⟩ => ⟨S16777216, .i1⟩
  | .hbm, ⟨17, _⟩ => ⟨S_, .i32⟩
  | .hbm, ⟨18, _⟩ => ⟨S16777216, .i32⟩
  | .hbm, ⟨19, _⟩ => ⟨S16777216, .i32⟩
  | .hbm, ⟨20, _⟩ => ⟨S16777216, .i32⟩
  | .hbm, ⟨21, _⟩ => ⟨S_, .i32⟩
  | .hbm, ⟨22, _⟩ => ⟨S16777216, .i32⟩
  | .hbm, ⟨23, _⟩ => ⟨S16777216, .i1⟩
  | .hbm, ⟨24, _⟩ => ⟨S_, .i32⟩
  | .hbm, ⟨25, _⟩ => ⟨S16777216, .i32⟩
  | .hbm, ⟨26, _⟩ => ⟨S16777216, .i32⟩
  | .hbm, ⟨27, _⟩ => ⟨S16777216, .i32⟩
  | .hbm, ⟨28, _⟩ => ⟨S16777216x1, .i32⟩
  | .hbm, ⟨29, _⟩ => ⟨S16777216x1, .i32⟩
  | .hbm, ⟨30, _⟩ => ⟨S16777216x2, .i32⟩
  | .hbm, ⟨31, _⟩ => ⟨S8192x2048, .f32⟩
  | .hbm, ⟨32, _⟩ => ⟨S2048x8192, .f32⟩
  | .hbm, ⟨33, _⟩ => ⟨S64x8192, .f32⟩
  | .hbm, ⟨34, _⟩ => ⟨S1x8192, .f32⟩
  | .hbm, ⟨35, _⟩ => ⟨S64x8192, .f32⟩
  | .hbm, ⟨36, _⟩ => ⟨S64x8192, .f32⟩
  | .hbm, ⟨37, _⟩ => ⟨S_, .f32⟩
  | .hbm, ⟨38, _⟩ => ⟨S64x8192, .f32⟩
  | .hbm, ⟨39, _⟩ => ⟨S64x8192, .f32⟩
  | .hbm, ⟨40, _⟩ => ⟨S_, .f32⟩
  | .hbm, ⟨41, _⟩ => ⟨S64x8192, .f32⟩
  | .hbm, ⟨42, _⟩ => ⟨S64x8192, .i1⟩
  | .hbm, ⟨43, _⟩ => ⟨S64x8192, .f32⟩
  | .hbm, ⟨44, _⟩ => ⟨S8192x10, .f32⟩
  | .hbm, ⟨45, _⟩ => ⟨S64x10, .f32⟩
  | .hbm, ⟨46, _⟩ => ⟨S1x10, .f32⟩
  | .hbm, ⟨47, _⟩ => ⟨S64x10, .f32⟩
  | .hbm, ⟨48, _⟩ => ⟨S64x10, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]

class Facts₀ : Prop where
  bcast_S8192_S8192x2048_0 : S8192.BroadcastsInDim S8192x2048 (![0] : Fin 1 → Fin S8192x2048.rank)
  shapeCasts_S8192x2048_S16777216 : S8192x2048.ShapeCasts S16777216
  shapeCasts_S2048_S1x2048 : S2048.ShapeCasts S1x2048
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  bcast_S_S16777216 : S_.BroadcastsInDim S16777216 (![] : Fin 0 → Fin S16777216.rank)
  bcast_S16777216_S16777216x1_0 : S16777216.BroadcastsInDim S16777216x1 (![0] : Fin 1 → Fin S16777216x1.rank)
  concatenates_S16777216x1_S16777216x1_S16777216x2_d1 : Shape.Concatenates [S16777216x1, S16777216x1] S16777216x2 1
  transposes_S8192x2048_S2048x8192_1_0 : S8192x2048.Transposes [1, 0] S2048x8192
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  bcast_S_S64x8192 : S_.BroadcastsInDim S64x8192 (![] : Fin 0 → Fin S64x8192.rank)
  transposes_S10x8192_S8192x10_1_0 : S10x8192.Transposes [1, 0] S8192x10
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S8192x2048_S16777216x2_S16777216_n_01_01_1_wf : ScatterDims.WF S8192x2048 S16777216x2 S16777216 [] [0, 1] [0, 1] 1
  dot_S64x2048_S2048x8192_S64x8192_1_0_0_1_n_n_wf : DotDims.WF S64x2048 S2048x8192 S64x8192 [1] [0] [0] [1] [] []
  dot_S64x8192_S8192x10_S64x10_1_0_0_1_n_n_wf : DotDims.WF S64x8192 S8192x10 S64x10 [1] [0] [0] [1] [] []

variable [Facts₀]

def scatter_S8192x2048_S16777216x2_S16777216_n_01_01_1 : ScatterDims S8192x2048 S16777216x2 S16777216 where
  updateWindowDims := []
  insertedWindowDims := [0, 1]
  scatterDimsToOperandDims := [0, 1]
  indexVectorDim := 1
  wf := scatter_S8192x2048_S16777216x2_S16777216_n_01_01_1_wf
def dot_S64x2048_S2048x8192_S64x8192_1_0_0_1_n_n : DotDims S64x2048 S2048x8192 S64x8192 where
  lhsContracting := [1]
  rhsContracting := [0]
  lhsNonContracting := [0]
  rhsNonContracting := [1]
  lhsBatch := []
  rhsBatch := []
  wf := dot_S64x2048_S2048x8192_S64x8192_1_0_0_1_n_n_wf
def dot_S64x8192_S8192x10_S64x10_1_0_0_1_n_n : DotDims S64x8192 S8192x10 S64x10 where
  lhsContracting := [1]
  rhsContracting := [0]
  lhsNonContracting := [0]
  rhsNonContracting := [1]
  lhsBatch := []
  rhsBatch := []
  wf := dot_S64x8192_S8192x10_S64x10_1_0_0_1_n_n_wf

class Facts : Prop extends Facts₀ where

variable [Facts]
-- ==== Proof.BodyBits.lean ====
import proofs.«103174_g51470888075730_cont_8to1_c_646_16_alg».proof.Proof.Gen.Kernel.Frame
import proofs.«103174_g51470888075730_cont_8to1_c_646_16_alg».proof.Proof.Gen.Kernel.Skeleton
import Idealize.ShloMosaic.Lib.Pipeline.Value

/-!
# The pipelined kernel's run (the program as printed)

The kernel visits eight grid points. At each it is handed one block of the flat weight list (1024 hidden units'
weights), the matching blocks of the hidden biases and of the second layer's weights, and the whole input batch, and
it keeps ONE [64, 10] output block across all points: the first point stores the first block's contribution plus the
class biases, every later point adds its block's contribution to what is there, and the block is written back to the
result array once, after the last point.

This module states that as proof data for the pipeline library — what each staging buffer holds after each point,
the output's being the running total `acc` — proves the body's two cases on arbitrary staging buffers, and
concludes the run: every execution terminates, the arguments end unchanged, and the result array ends holding what
the proof data computes. Everything here holds at any float instance.
-/

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on any staging buffers, case by case

The kernel body loads the four streamed blocks, forms the block's contribution (the payload `k0_pay1`), and then
either — at the first grid point — stores that contribution plus the class biases (`k0_pay2`), or — at every later
point — adds it to what the output buffer already holds (`k0_pay3`). Both stores cover the whole [64, 10] buffer
at offset zero, so what the buffer reads afterwards is the stored payload itself. -/

theorem zeros2 : (![0, 0] : Fin 2 → ℕ) = fun _ => 0 := funext fun a => by
  match a with
  | ⟨0, _⟩ => rfl
  | ⟨1, _⟩ => rfl
theorem zeros1 : (![0] : Fin 1 → ℕ) = fun _ => 0 := funext fun a => by
  match a with
  | ⟨0, _⟩ => rfl

set_option maxHeartbeats 1000000 in
/-- The body at a point where only the first branch is taken: every input buffer is handed back as found, and the
    output buffer, whatever it held, ends holding the block's contribution plus the broadcast class biases. -/
theorem run_first (c : Dev nD) (i : grid0.Coords) (arg1 : Memref sig .tc .vmem S64x2048 .f32) (harg1 : arg1.IsWhole) (arg2 : Memref sig .tc .vmem S2097152 .f32) (harg2 : arg2.IsWhole) (arg3 : Memref sig .tc .vmem S1x1024 .f32) (harg3 : arg3.IsWhole) (arg4 : Memref sig .tc .vmem S10x1024 .f32) (harg4 : arg4.IsWhole) (arg5 : Memref sig .tc .vmem S1x10 .f32) (harg5 : arg5.IsWhole) (arg6 : Memref sig .tc .vmem S64x10 .f32) (harg6 : arg6.IsWhole)
    (hc0 : k0_cond1 i = 1#1) (hc1 : ¬k0_cond2 i = 1#1)
    (x0 : Vec F S64x2048 .f32) (x1 : Vec F S2097152 .f32) (x2 : Vec F S1x1024 .f32) (x3 : Vec F S10x1024 .f32) (x4 : Vec F S1x10 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay2 x1 x0 x2 x3 x4)) -∗ K ⟨⟩))
          ⊢ wp frame (wpE (defs₀ (F := F)) Variants.none c none) E (cc0__fused i arg1 harg1 arg2 harg2 arg3 harg3 arg4 harg4 arg5 harg5 arg6 harg6) K := by
    intro E K
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; isplitr; swap; · iexact H5
    ipureintro
    rw [View.read_writes_eq_canon _ _ _ (fun y => ⟨_, List.mem_singleton_self _, View.mem_set_unit_zero zeros2 inb_S64x10_S64x10_0_0 y⟩),
      View.canon_unit_zero zeros2]
    simp only [View.readAt_eq_ld, harg1.read_unread, harg2.read_unread, harg3.read_unread, harg4.read_unread, harg5.read_unread]
    rw [View.ld_unit_zero (S := S2097152) zeros1, View.ld_unit_zero (S := S64x2048) zeros2, View.ld_unit_zero (S := S1x1024) zeros2,
      View.ld_unit_zero (S := S10x1024) zeros2, View.ld_unit_zero (S := S1x10) zeros2]

set_option maxHeartbeats 1000000 in
/-- The body at a point where only the second branch is taken: the output buffer, holding `xo` from the point
    before, ends holding `xo` plus the block's contribution. -/
theorem run_later (c : Dev nD) (i : grid0.Coords) (arg1 : Memref sig .tc .vmem S64x2048 .f32) (harg1 : arg1.IsWhole) (arg2 : Memref sig .tc .vmem S2097152 .f32) (harg2 : arg2.IsWhole) (arg3 : Memref sig .tc .vmem S1x1024 .f32) (harg3 : arg3.IsWhole) (arg4 : Memref sig .tc .vmem S10x1024 .f32) (harg4 : arg4.IsWhole) (arg5 : Memref sig .tc .vmem S1x10 .f32) (harg5 : arg5.IsWhole) (arg6 : Memref sig .tc .vmem S64x10 .f32) (harg6 : arg6.IsWhole)
    (hc0 : ¬k0_cond1 i = 1#1) (hc1 : k0_cond2 i = 1#1)
    (x0 : Vec F S64x2048 .f32) (x1 : Vec F S2097152 .f32) (x2 : Vec F S1x1024 .f32) (x3 : Vec F S10x1024 .f32) (x4 : Vec F S1x10 .f32) (xo : Vec F S64x10 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay3 x1 x0 x2 x3 xo)) -∗ K ⟨⟩))
          ⊢ wp frame (wpE (defs₀ (F := F)) Variants.none c none) E (cc0__fused i arg1 harg1 arg2 harg2 arg3 harg3 arg4 harg4 arg5 harg5 arg6 harg6) K := by
    intro E K
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; isplitr; swap; · iexact H5
    ipureintro
    rw [View.read_writes_eq_canon _ _ _ (fun y => ⟨_, List.mem_singleton_self _, View.mem_set_unit_zero zeros2 inb_S64x10_S64x10_0_0 y⟩),
      View.canon_unit_zero zeros2]
    simp only [View.readAt_eq_ld, harg1.read_unread, harg2.read_unread, harg3.read_unread, harg4.read_unread, harg6.read_unread]
    rw [View.ld_unit_zero (S := S2097152) zeros1, View.ld_unit_zero (S := S64x2048) zeros2, View.ld_unit_zero (S := S1x1024) zeros2,
      View.ld_unit_zero (S := S10x1024) zeros2, View.ld_unit_zero (S := S64x10) zeros2]

/-! ## Which branch a grid point takes, and where the output window is live -/

/-- The first branch is taken at the first of the eight grid points only. -/
theorem first_iff : ∀ t : Fin cfg0.N, k0_cond1 (grid0.coords t) = 1#1 ↔ t.val = 0 :=
  (by decide +kernel : ∀ t : Fin grid0.N, k0_cond1 (grid0.coords t) = 1#1 ↔ t.val = 0)
/-- The second branch is taken at every point but the first. -/
theorem later_iff : ∀ t : Fin cfg0.N, k0_cond2 (grid0.coords t) = 1#1 ↔ t.val ≠ 0 :=
  (by decide +kernel : ∀ t : Fin grid0.N, k0_cond2 (grid0.coords t) = 1#1 ↔ t.val ≠ 0)

/-- No window is idle at any point: the inputs never are, and one of the output's two stores runs at each point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-! ## What the output buffer holds after each point -/

/-- The running total in the output's staging buffer after the body at position `n`: at the first point the
    first block's contribution plus the biases; afterwards the previous total plus the point's block's contribution.
    The output block is the same at every point and is written back only after the last, so the buffer carries
    the total from one point to the next. -/
def acc (c : Dev nD) : (n : ℕ) → n < cfg0.N → Vec F S64x10 .f32
  | 0, hn => k0_pay2 (iblk m c 1 ⟨0, hn⟩) (iblk m c 0 ⟨0, hn⟩) (iblk m c 2 ⟨0, hn⟩) (iblk m c 3 ⟨0, hn⟩) (iblk m c 4 ⟨0, hn⟩)
  | n + 1, hn => k0_pay3 (iblk m c 1 ⟨n + 1, hn⟩) (iblk m c 0 ⟨n + 1, hn⟩) (iblk m c 2 ⟨n + 1, hn⟩) (iblk m c 3 ⟨n + 1, hn⟩)
      (acc c n (Nat.lt_of_succ_lt hn))

theorem acc_first (c : Dev nD) (t : Fin cfg0.N) (h0 : t.val = 0) :
    acc m c t.val t.isLt = k0_pay2 (iblk m c 1 t) (iblk m c 0 t) (iblk m c 2 t) (iblk m c 3 t) (iblk m c 4 t) := by
  obtain ⟨n, hn⟩ := t
  cases n with
  | zero => rfl
  | succ n => exact absurd h0 (Nat.succ_ne_zero n)

theorem acc_later (c : Dev nD) (t : Fin cfg0.N) (h0 : t.val ≠ 0) :
    acc m c t.val t.isLt = k0_pay3 (iblk m c 1 t) (iblk m c 0 t) (iblk m c 2 t) (iblk m c 3 t)
      (acc m c (t.val - 1) (Nat.lt_of_le_of_lt (Nat.sub_le _ _) t.isLt)) := by
  obtain ⟨n, hn⟩ := t
  cases n with
  | zero => exact absurd rfl h0
  | succ n => rfl

/-! ## The pipeline's proof data -/

/-- On core `c`: the arrays as the region finds them; after the body at point `t` each input's buffer still at its
    block and the output's at the running total; nothing beyond the staging buffers is used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = acc m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- After the first point the output's staging buffer holds what the body left at the point before: the block is
    written back after the last point only, the window is live at the point before and its block is not clipped. -/
theorem before5_later (c : Dev nD) (t : Fin cfg0.N) (h0 : t.val ≠ 0) (d) :
    (dats m 0 c).before 5 t d = acc m c (t.val - 1) (Nat.lt_of_le_of_lt (Nat.sub_le _ _) t.isLt) := by
  have hN : t.val < 8 := lt_of_lt_of_eq t.isLt (show cfg0.N = 8 from N_0)
  rw [(dats m 0 c).before_of_pos 5 t h0 ((cfg0.win 5).fetch_out rfl t),
    if_neg (fun h => by have := (flush0_5 _).mp h; dsimp only at this; omega)]
  unfold Dat.left
  rw [live5 ⟨t.val - 1, Nat.lt_of_le_of_lt (Nat.sub_le _ _) t.isLt⟩]
  dsimp only
  unfold Dat.kept
  rw [Pipeline.fill_of_clip_none (cfg := cfg0) 5 _ (fun _ => rfl) d ((dats m 0 c).after 5 _), Window.fill_cut, after5]

/-! ## The body obligation, at a generic point -/

/-- What the body is called with at point `t`: the invariant, what the core owes, and each window's current
    staging buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0 (c : Dev nD) (t : Fin cfg0.N) : (dats m 0 c).leavesExact 0 t = owns (c : Thread nD τ) (st0_0 t) fullShare (iblk m c 0 t) := by
  unfold Dat.leavesExact; rw [live0 t, after0]
theorem leaves1 (c : Dev nD) (t : Fin cfg0.N) : (dats m 0 c).leavesExact 1 t = owns (c : Thread nD τ) (st0_1 t) fullShare (iblk m c 1 t) := by
  unfold Dat.leavesExact; rw [live1 t, after1]
theorem leaves2 (c : Dev nD) (t : Fin cfg0.N) : (dats m 0 c).leavesExact 2 t = owns (c : Thread nD τ) (st0_2 t) fullShare (iblk m c 2 t) := by
  unfold Dat.leavesExact; rw [live2 t, after2]
theorem leaves3 (c : Dev nD) (t : Fin cfg0.N) : (dats m 0 c).leavesExact 3 t = owns (c : Thread nD τ) (st0_3 t) fullShare (iblk m c 3 t) := by
  unfold Dat.leavesExact; rw [live3 t, after3]
theorem leaves4 (c : Dev nD) (t : Fin cfg0.N) : (dats m 0 c).leavesExact 4 t = owns (c : Thread nD τ) (st0_4 t) fullShare (iblk m c 4 t) := by
  unfold Dat.leavesExact; rw [live4 t, after4]
theorem leaves5 (c : Dev nD) (t : Fin cfg0.N) : (dats m 0 c).leavesExact 5 t = owns (c : Thread nD τ) (st0_5 t) fullShare (acc m c t.val t.isLt) := by
  unfold Dat.leavesExact; rw [live5 t, after5]

set_option maxHeartbeats 800000 in
/-- The body at any point: the inputs' buffers hold their blocks; at the first point the output's buffer holds
    anything and the first case applies, at a later point it holds the running total and the second case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    leaves0, leaves1, leaves2, leaves3, leaves4, leaves5]
  by_cases h0 : t.val = 0
  · rw [acc_first m c t h0]
    iintro ⟨HΦ, Ho, ⟨%d0, H0⟩, ⟨%d1, H1⟩, ⟨%d2, H2⟩, ⟨%d3, H3⟩, ⟨%d4, H4⟩, ⟨%d5, H5⟩⟩
    iapply ((run_first c (grid0.coords t) _ _ _ _ _ _ _ _ _ _ _ _ ((first_iff t).mpr h0) (fun h => (later_iff t).mp h h0) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc_later m c t h0]
    simp only [before5_later m c t h0]
    iintro ⟨HΦ, Ho, ⟨%d0, H0⟩, ⟨%d1, H1⟩, ⟨%d2, H2⟩, ⟨%d3, H3⟩, ⟨%d4, H4⟩, ⟨%d5, H5⟩⟩
    iapply ((run_later c (grid0.coords t) _ _ _ _ _ _ _ _ _ _ _ _ (fun h => h0 ((first_iff t).mp h)) ((later_iff t).mpr h0) (iblk m c 0 t) (iblk m c 1 t) (iblk m c 2 t) (iblk m c 3 t) (iblk m c 4 t) _) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body obligation of the pipeline library, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the pipeline
    ending at what the proof data computes (the output: its entry contents overwritten by the last running total)
    and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.BodyIdeal.lean ====
import proofs.«103174_g51470888075730_cont_8to1_c_646_16_alg».proof.Proof.Gen.KernelIdeal.Frame
import proofs.«103174_g51470888075730_cont_8to1_c_646_16_alg».proof.Proof.Gen.KernelIdeal.Skeleton
import Idealize.ShloMosaic.Lib.Pipeline.Value

/-!
# The pipelined kernel's run (the idealized program)

The kernel visits eight grid points. At each it is handed one block of the flat weight list (1024 hidden units'
weights), the matching blocks of the hidden biases and of the second layer's weights, and the whole input batch, and
it keeps ONE [64, 10] output block across all points: the first point stores the first block's contribution plus the
class biases, every later point adds its block's contribution to what is there, and the block is written back to the
result array once, after the last point.

This module states that as proof data for the pipeline library — what each staging buffer holds after each point,
the output's being the running total `acc` — proves the body's two cases on arbitrary staging buffers, and
concludes the run: every execution terminates, the arguments end unchanged, and the result array ends holding what
the proof data computes. Everything here holds at any float instance.
-/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on any staging buffers, case by case

The kernel body loads the four streamed blocks, forms the block's contribution (the payload `k0_pay1`), and then
either — at the first grid point — stores that contribution plus the class biases (`k0_pay2`), or — at every later
point — adds it to what the output buffer already holds (`k0_pay3`). Both stores cover the whole [64, 10] buffer
at offset zero, so what the buffer reads afterwards is the stored payload itself. -/

theorem zeros2 : (![0, 0] : Fin 2 → ℕ) = fun _ => 0 := funext fun a => by
  match a with
  | ⟨0, _⟩ => rfl
  | ⟨1, _⟩ => rfl
theorem zeros1 : (![0] : Fin 1 → ℕ) = fun _ => 0 := funext fun a => by
  match a with
  | ⟨0, _⟩ => rfl

set_option maxHeartbeats 1000000 in
/-- The body at a point where only the first branch is taken: every input buffer is handed back as found, and the
    output buffer, whatever it held, ends holding the block's contribution plus the broadcast class biases. -/
theorem run_first (c : Dev nD) (i : grid0.Coords) (arg1 : Memref sig .tc .vmem S64x2048 .f32) (harg1 : arg1.IsWhole) (arg2 : Memref sig .tc .vmem S2097152 .f32) (harg2 : arg2.IsWhole) (arg3 : Memref sig .tc .vmem S1x1024 .f32) (harg3 : arg3.IsWhole) (arg4 : Memref sig .tc .vmem S10x1024 .f32) (harg4 : arg4.IsWhole) (arg5 : Memref sig .tc .vmem S1x10 .f32) (harg5 : arg5.IsWhole) (arg6 : Memref sig .tc .vmem S64x10 .f32) (harg6 : arg6.IsWhole)
    (hc0 : k0_cond1 i = 1#1) (hc1 : ¬k0_cond2 i = 1#1)
    (x0 : Vec F S64x2048 .f32) (x1 : Vec F S2097152 .f32) (x2 : Vec F S1x1024 .f32) (x3 : Vec F S10x1024 .f32) (x4 : Vec F S1x10 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay2 x1 x0 x2 x3 x4)) -∗ K ⟨⟩))
          ⊢ wp frame (wpE (defs₀ (F := F)) Variants.none c none) E (cc0__fused i arg1 harg1 arg2 harg2 arg3 harg3 arg4 harg4 arg5 harg5 arg6 harg6) K := by
    intro E K
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; isplitr; swap; · iexact H5
    ipureintro
    rw [View.read_writes_eq_canon _ _ _ (fun y => ⟨_, List.mem_singleton_self _, View.mem_set_unit_zero zeros2 inb_S64x10_S64x10_0_0 y⟩),
      View.canon_unit_zero zeros2]
    simp only [View.readAt_eq_ld, harg1.read_unread, harg2.read_unread, harg3.read_unread, harg4.read_unread, harg5.read_unread]
    rw [View.ld_unit_zero (S := S2097152) zeros1, View.ld_unit_zero (S := S64x2048) zeros2, View.ld_unit_zero (S := S1x1024) zeros2,
      View.ld_unit_zero (S := S10x1024) zeros2, View.ld_unit_zero (S := S1x10) zeros2]

set_option maxHeartbeats 1000000 in
/-- The body at a point where only the second branch is taken: the output buffer, holding `xo` from the point
    before, ends holding `xo` plus the block's contribution. -/
theorem run_later (c : Dev nD) (i : grid0.Coords) (arg1 : Memref sig .tc .vmem S64x2048 .f32) (harg1 : arg1.IsWhole) (arg2 : Memref sig .tc .vmem S2097152 .f32) (harg2 : arg2.IsWhole) (arg3 : Memref sig .tc .vmem S1x1024 .f32) (harg3 : arg3.IsWhole) (arg4 : Memref sig .tc .vmem S10x1024 .f32) (harg4 : arg4.IsWhole) (arg5 : Memref sig .tc .vmem S1x10 .f32) (harg5 : arg5.IsWhole) (arg6 : Memref sig .tc .vmem S64x10 .f32) (harg6 : arg6.IsWhole)
    (hc0 : ¬k0_cond1 i = 1#1) (hc1 : k0_cond2 i = 1#1)
    (x0 : Vec F S64x2048 .f32) (x1 : Vec F S2097152 .f32) (x2 : Vec F S1x1024 .f32) (x3 : Vec F S10x1024 .f32) (x4 : Vec F S1x10 .f32) (xo : Vec F S64x10 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay3 x1 x0 x2 x3 xo)) -∗ K ⟨⟩))
          ⊢ wp frame (wpE (defs₀ (F := F)) Variants.none c none) E (cc0__fused i arg1 harg1 arg2 harg2 arg3 harg3 arg4 harg4 arg5 harg5 arg6 harg6) K := by
    intro E K
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; isplitr; swap; · iexact H5
    ipureintro
    rw [View.read_writes_eq_canon _ _ _ (fun y => ⟨_, List.mem_singleton_self _, View.mem_set_unit_zero zeros2 inb_S64x10_S64x10_0_0 y⟩),
      View.canon_unit_zero zeros2]
    simp only [View.readAt_eq_ld, harg1.read_unread, harg2.read_unread, harg3.read_unread, harg4.read_unread, harg6.read_unread]
    rw [View.ld_unit_zero (S := S2097152) zeros1, View.ld_unit_zero (S := S64x2048) zeros2, View.ld_unit_zero (S := S1x1024) zeros2,
      View.ld_unit_zero (S := S10x1024) zeros2, View.ld_unit_zero (S := S64x10) zeros2]

/-! ## Which branch a grid point takes, and where the output window is live -/

/-- The first branch is taken at the first of the eight grid points only. -/
theorem first_iff : ∀ t : Fin cfg0.N, k0_cond1 (grid0.coords t) = 1#1 ↔ t.val = 0 :=
  (by decide +kernel : ∀ t : Fin grid0.N, k0_cond1 (grid0.coords t) = 1#1 ↔ t.val = 0)
/-- The second branch is taken at every point but the first. -/
theorem later_iff : ∀ t : Fin cfg0.N, k0_cond2 (grid0.coords t) = 1#1 ↔ t.val ≠ 0 :=
  (by decide +kernel : ∀ t : Fin grid0.N, k0_cond2 (grid0.coords t) = 1#1 ↔ t.val ≠ 0)

/-- No window is idle at any point: the inputs never are, and one of the output's two stores runs at each point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-! ## What the output buffer holds after each point -/

/-- The running total in the output's staging buffer after the body at position `n`: at the first point the
    first block's contribution plus the biases; afterwards the previous total plus the point's block's contribution.
    The output block is the same at every point and is written back only after the last, so the buffer carries
    the total from one point to the next. -/
def acc (c : Dev nD) : (n : ℕ) → n < cfg0.N → Vec F S64x10 .f32
  | 0, hn => k0_pay2 (iblk m c 1 ⟨0, hn⟩) (iblk m c 0 ⟨0, hn⟩) (iblk m c 2 ⟨0, hn⟩) (iblk m c 3 ⟨0, hn⟩) (iblk m c 4 ⟨0, hn⟩)
  | n + 1, hn => k0_pay3 (iblk m c 1 ⟨n + 1, hn⟩) (iblk m c 0 ⟨n + 1, hn⟩) (iblk m c 2 ⟨n + 1, hn⟩) (iblk m c 3 ⟨n + 1, hn⟩)
      (acc c n (Nat.lt_of_succ_lt hn))

theorem acc_first (c : Dev nD) (t : Fin cfg0.N) (h0 : t.val = 0) :
    acc m c t.val t.isLt = k0_pay2 (iblk m c 1 t) (iblk m c 0 t) (iblk m c 2 t) (iblk m c 3 t) (iblk m c 4 t) := by
  obtain ⟨n, hn⟩ := t
  cases n with
  | zero => rfl
  | succ n => exact absurd h0 (Nat.succ_ne_zero n)

theorem acc_later (c : Dev nD) (t : Fin cfg0.N) (h0 : t.val ≠ 0) :
    acc m c t.val t.isLt = k0_pay3 (iblk m c 1 t) (iblk m c 0 t) (iblk m c 2 t) (iblk m c 3 t)
      (acc m c (t.val - 1) (Nat.lt_of_le_of_lt (Nat.sub_le _ _) t.isLt)) := by
  obtain ⟨n, hn⟩ := t
  cases n with
  | zero => exact absurd rfl h0
  | succ n => rfl

/-! ## The pipeline's proof data -/

/-- On core `c`: the arrays as the region finds them; after the body at point `t` each input's buffer still at its
    block and the output's at the running total; nothing beyond the staging buffers is used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = acc m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- After the first point the output's staging buffer holds what the body left at the point before: the block is
    written back after the last point only, the window is live at the point before and its block is not clipped. -/
theorem before5_later (c : Dev nD) (t : Fin cfg0.N) (h0 : t.val ≠ 0) (d) :
    (dats m 0 c).before 5 t d = acc m c (t.val - 1) (Nat.lt_of_le_of_lt (Nat.sub_le _ _) t.isLt) := by
  have hN : t.val < 8 := lt_of_lt_of_eq t.isLt (show cfg0.N = 8 from N_0)
  rw [(dats m 0 c).before_of_pos 5 t h0 ((cfg0.win 5).fetch_out rfl t),
    if_neg (fun h => by have := (flush0_5 _).mp h; dsimp only at this; omega)]
  unfold Dat.left
  rw [live5 ⟨t.val - 1, Nat.lt_of_le_of_lt (Nat.sub_le _ _) t.isLt⟩]
  dsimp only
  unfold Dat.kept
  rw [Pipeline.fill_of_clip_none (cfg := cfg0) 5 _ (fun _ => rfl) d ((dats m 0 c).after 5 _), Window.fill_cut, after5]

/-! ## The body obligation, at a generic point -/

/-- What the body is called with at point `t`: the invariant, what the core owes, and each window's current
    staging buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0 (c : Dev nD) (t : Fin cfg0.N) : (dats m 0 c).leavesExact 0 t = owns (c : Thread nD τ) (st0_0 t) fullShare (iblk m c 0 t) := by
  unfold Dat.leavesExact; rw [live0 t, after0]
theorem leaves1 (c : Dev nD) (t : Fin cfg0.N) : (dats m 0 c).leavesExact 1 t = owns (c : Thread nD τ) (st0_1 t) fullShare (iblk m c 1 t) := by
  unfold Dat.leavesExact; rw [live1 t, after1]
theorem leaves2 (c : Dev nD) (t : Fin cfg0.N) : (dats m 0 c).leavesExact 2 t = owns (c : Thread nD τ) (st0_2 t) fullShare (iblk m c 2 t) := by
  unfold Dat.leavesExact; rw [live2 t, after2]
theorem leaves3 (c : Dev nD) (t : Fin cfg0.N) : (dats m 0 c).leavesExact 3 t = owns (c : Thread nD τ) (st0_3 t) fullShare (iblk m c 3 t) := by
  unfold Dat.leavesExact; rw [live3 t, after3]
theorem leaves4 (c : Dev nD) (t : Fin cfg0.N) : (dats m 0 c).leavesExact 4 t = owns (c : Thread nD τ) (st0_4 t) fullShare (iblk m c 4 t) := by
  unfold Dat.leavesExact; rw [live4 t, after4]
theorem leaves5 (c : Dev nD) (t : Fin cfg0.N) : (dats m 0 c).leavesExact 5 t = owns (c : Thread nD τ) (st0_5 t) fullShare (acc m c t.val t.isLt) := by
  unfold Dat.leavesExact; rw [live5 t, after5]

set_option maxHeartbeats 800000 in
/-- The body at any point: the inputs' buffers hold their blocks; at the first point the output's buffer holds
    anything and the first case applies, at a later point it holds the running total and the second case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    leaves0, leaves1, leaves2, leaves3, leaves4, leaves5]
  by_cases h0 : t.val = 0
  · rw [acc_first m c t h0]
    iintro ⟨HΦ, Ho, ⟨%d0, H0⟩, ⟨%d1, H1⟩, ⟨%d2, H2⟩, ⟨%d3, H3⟩, ⟨%d4, H4⟩, ⟨%d5, H5⟩⟩
    iapply ((run_first c (grid0.coords t) _ _ _ _ _ _ _ _ _ _ _ _ ((first_iff t).mpr h0) (fun h => (later_iff t).mp h h0) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc_later m c t h0]
    simp only [before5_later m c t h0]
    iintro ⟨HΦ, Ho, ⟨%d0, H0⟩, ⟨%d1, H1⟩, ⟨%d2, H2⟩, ⟨%d3, H3⟩, ⟨%d4, H4⟩, ⟨%d5, H5⟩⟩
    iapply ((run_later c (grid0.coords t) _ _ _ _ _ _ _ _ _ _ _ _ (fun h => h0 ((first_iff t).mp h)) ((later_iff t).mpr h0) (iblk m c 0 t) (iblk m c 1 t) (iblk m c 2 t) (iblk m c 3 t) (iblk m c 4 t) _) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body obligation of the pipeline library, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the pipeline
    ending at what the proof data computes (the output: its entry contents overwritten by the last running total)
    and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.PayIdeal.lean ====
import proofs.«103174_g51470888075730_cont_8to1_c_646_16_alg».proof.Proof.Gen.KernelIdeal.Skeleton
import Idealize.ShloMosaic.Lib.ValueIdx
import Idealize.ShloMosaic.Lib.Pipeline.Value
import Idealize.ShloMosaic.PureOps.Ideal.Laws

/-!
# One block's contribution, entry by entry

At the ideal values the body's arithmetic on one block of 1024 hidden units is, for batch row `p` and class `q`,

    ∑ j < 1024, max (∑ k < 2048, x p k · wblk (j · 2048 + k) + bblk j) 0 · fw q j

— the first matrix product against the block's weights re-laid as a [1024, 2048] matrix (row `j` is the 2048
consecutive entries from `j · 2048`), the block's biases added to every row, the rectifier, and the second matrix
product against the block's columns of the second layer. Both products contract the operands' second axes.
-/

noncomputable section

open scoped BigOperators

namespace Cert.KernelIdeal.Pay

open Cert.KernelIdeal Cert.KernelIdeal.Gen Idealize.ShloMosaic Idealize.ShloMosaic.ValueIdx

/-! ## The two matrix products read at an entry -/

theorem hid_l0 (i : S64x1024.Idx) (q : dot_S64x2048_S1024x2048_S64x1024_1_1_0_0_n_n.contr.Idx) :
    (dot_S64x2048_S1024x2048_S64x1024_1_1_0_0_n_n.lhsIdx i q 0).val = (i 0).val := by
  unfold DotDims.lhsIdx
  rw [dif_neg (show ¬(0 : Fin S64x2048.rank) ∈ dot_S64x2048_S1024x2048_S64x1024_1_1_0_0_n_n.lhsBatch by decide), dif_pos (show (0 : Fin S64x2048.rank) ∈ dot_S64x2048_S1024x2048_S64x1024_1_1_0_0_n_n.lhsNonContracting by decide)]
  rfl
theorem hid_l1 (i : S64x1024.Idx) (q : dot_S64x2048_S1024x2048_S64x1024_1_1_0_0_n_n.contr.Idx) :
    (dot_S64x2048_S1024x2048_S64x1024_1_1_0_0_n_n.lhsIdx i q 1).val = (q ⟨0, by decide⟩).val :=
  dot_S64x2048_S1024x2048_S64x1024_1_1_0_0_n_n.lhsIdx_val_of_single rfl i q
theorem hid_r0 (i : S64x1024.Idx) (q : dot_S64x2048_S1024x2048_S64x1024_1_1_0_0_n_n.contr.Idx) :
    (dot_S64x2048_S1024x2048_S64x1024_1_1_0_0_n_n.rhsIdx i q 0).val = (i 1).val := by
  unfold DotDims.rhsIdx
  rw [dif_neg (show ¬(0 : Fin S1024x2048.rank) ∈ dot_S64x2048_S1024x2048_S64x1024_1_1_0_0_n_n.rhsBatch by decide), dif_pos (show (0 : Fin S1024x2048.rank) ∈ dot_S64x2048_S1024x2048_S64x1024_1_1_0_0_n_n.rhsNonContracting by decide)]
  rfl
theorem hid_r1 (i : S64x1024.Idx) (q : dot_S64x2048_S1024x2048_S64x1024_1_1_0_0_n_n.contr.Idx) :
    (dot_S64x2048_S1024x2048_S64x1024_1_1_0_0_n_n.rhsIdx i q 1).val = (q ⟨0, by decide⟩).val :=
  dot_S64x2048_S1024x2048_S64x1024_1_1_0_0_n_n.rhsIdx_val_of_single rfl i q

/-- The first product: entry (p, j) is row `p` of the batch against row `j` of the re-laid weight block. -/
theorem hidden_mm (l : FVec Ideal S64x2048 .f32) (r : FVec Ideal S1024x2048 .f32) (p : Fin 64) (j : Fin 1024) :
    matmul dot_S64x2048_S1024x2048_S64x1024_1_1_0_0_n_n none l r (constant (F := Ideal) S64x1024 .f32 0x00000000#32) (ix2 p j)
      = ∑ k : Fin 2048, l (ix2 p k) * r (ix2 j k) := by
  simp only [matmul]
  rw [Ideal.matmul_constant_zero_apply, ← Equiv.sum_comp (ValueIdx.contrEquiv1 dot_S64x2048_S1024x2048_S64x1024_1_1_0_0_n_n 2048 rfl rfl).symm]
  refine Finset.sum_congr rfl fun k _ => ?_
  have hk := ValueIdx.contrEquiv1_symm_val dot_S64x2048_S1024x2048_S64x1024_1_1_0_0_n_n 2048 rfl rfl k
  have el : dot_S64x2048_S1024x2048_S64x1024_1_1_0_0_n_n.lhsIdx (ix2 p j) ((ValueIdx.contrEquiv1 dot_S64x2048_S1024x2048_S64x1024_1_1_0_0_n_n 2048 rfl rfl).symm k) = ix2 p k := funext fun a => Fin.ext (by
    match a with
    | ⟨0, _⟩ => exact hid_l0 _ _
    | ⟨1, _⟩ => exact (hid_l1 _ _).trans hk)
  have er : dot_S64x2048_S1024x2048_S64x1024_1_1_0_0_n_n.rhsIdx (ix2 p j) ((ValueIdx.contrEquiv1 dot_S64x2048_S1024x2048_S64x1024_1_1_0_0_n_n 2048 rfl rfl).symm k) = ix2 j k := funext fun a => Fin.ext (by
    match a with
    | ⟨0, _⟩ => exact hid_r0 _ _
    | ⟨1, _⟩ => exact (hid_r1 _ _).trans hk)
  rw [el, er]

theorem out_l0 (i : S64x10.Idx) (q : dot_S64x1024_S10x1024_S64x10_1_1_0_0_n_n.contr.Idx) :
    (dot_S64x1024_S10x1024_S64x10_1_1_0_0_n_n.lhsIdx i q 0).val = (i 0).val := by
  unfold DotDims.lhsIdx
  rw [dif_neg (show ¬(0 : Fin S64x1024.rank) ∈ dot_S64x1024_S10x1024_S64x10_1_1_0_0_n_n.lhsBatch by decide), dif_pos (show (0 : Fin S64x1024.rank) ∈ dot_S64x1024_S10x1024_S64x10_1_1_0_0_n_n.lhsNonContracting by decide)]
  rfl
theorem out_l1 (i : S64x10.Idx) (q : dot_S64x1024_S10x1024_S64x10_1_1_0_0_n_n.contr.Idx) :
    (dot_S64x1024_S10x1024_S64x10_1_1_0_0_n_n.lhsIdx i q 1).val = (q ⟨0, by decide⟩).val :=
  dot_S64x1024_S10x1024_S64x10_1_1_0_0_n_n.lhsIdx_val_of_single rfl i q
theorem out_r0 (i : S64x10.Idx) (q : dot_S64x1024_S10x1024_S64x10_1_1_0_0_n_n.contr.Idx) :
    (dot_S64x1024_S10x1024_S64x10_1_1_0_0_n_n.rhsIdx i q 0).val = (i 1).val := by
  unfold DotDims.rhsIdx
  rw [dif_neg (show ¬(0 : Fin S10x1024.rank) ∈ dot_S64x1024_S10x1024_S64x10_1_1_0_0_n_n.rhsBatch by decide), dif_pos (show (0 : Fin S10x1024.rank) ∈ dot_S64x1024_S10x1024_S64x10_1_1_0_0_n_n.rhsNonContracting by decide)]
  rfl
theorem out_r1 (i : S64x10.Idx) (q : dot_S64x1024_S10x1024_S64x10_1_1_0_0_n_n.contr.Idx) :
    (dot_S64x1024_S10x1024_S64x10_1_1_0_0_n_n.rhsIdx i q 1).val = (q ⟨0, by decide⟩).val :=
  dot_S64x1024_S10x1024_S64x10_1_1_0_0_n_n.rhsIdx_val_of_single rfl i q

/-- The second product: entry (p, q) is row `p` of the hidden block against row `q` of the block's second-layer weights. -/
theorem class_mm (l : FVec Ideal S64x1024 .f32) (r : FVec Ideal S10x1024 .f32) (p : Fin 64) (q : Fin 10) :
    matmul dot_S64x1024_S10x1024_S64x10_1_1_0_0_n_n none l r (constant (F := Ideal) S64x10 .f32 0x00000000#32) (ix2 p q)
      = ∑ j : Fin 1024, l (ix2 p j) * r (ix2 q j) := by
  simp only [matmul]
  rw [Ideal.matmul_constant_zero_apply, ← Equiv.sum_comp (ValueIdx.contrEquiv1 dot_S64x1024_S10x1024_S64x10_1_1_0_0_n_n 1024 rfl rfl).symm]
  refine Finset.sum_congr rfl fun k _ => ?_
  have hk := ValueIdx.contrEquiv1_symm_val dot_S64x1024_S10x1024_S64x10_1_1_0_0_n_n 1024 rfl rfl k
  have el : dot_S64x1024_S10x1024_S64x10_1_1_0_0_n_n.lhsIdx (ix2 p q) ((ValueIdx.contrEquiv1 dot_S64x1024_S10x1024_S64x10_1_1_0_0_n_n 1024 rfl rfl).symm k) = ix2 p k := funext fun a => Fin.ext (by
    match a with
    | ⟨0, _⟩ => exact out_l0 _ _
    | ⟨1, _⟩ => exact (out_l1 _ _).trans hk)
  have er : dot_S64x1024_S10x1024_S64x10_1_1_0_0_n_n.rhsIdx (ix2 p q) ((ValueIdx.contrEquiv1 dot_S64x1024_S10x1024_S64x10_1_1_0_0_n_n 1024 rfl rfl).symm k) = ix2 q k := funext fun a => Fin.ext (by
    match a with
    | ⟨0, _⟩ => exact out_r0 _ _
    | ⟨1, _⟩ => exact (out_r1 _ _).trans hk)
  rw [el, er]

/-! ## The layout operations read at an entry -/

/-- Where row `j`, column `k` of the re-laid weight block sits in the flat block. -/
def bpos (j : Fin 1024) (k : Fin 2048) : Fin 2097152 :=
  ⟨j.val * 2048 + k.val, by have := j.isLt; have := k.isLt; omega⟩

/-- The flat weight block recast as a [1024, 2048] matrix: row-major. -/
theorem relaid_apply (x1 : Vec Ideal S2097152 .f32) (j : Fin 1024) (k : Fin 2048) :
    shapeCast S1024x2048 x1 shapeCasts_S2097152_S1024x2048 (ix2 j k) = x1 (ix1 (bpos j k)) :=
  shapeCast_apply x1 shapeCasts_S2097152_S1024x2048 (ix2 j k) (ix1 (bpos j k)) (by
    rw [Shape.rowMajor_val_one, Shape.rowMajor_val_two]; rfl)

/-- The block's biases, one row, repeated down the 64 batch rows. -/
theorem bias_rows_apply (x2 : Vec Ideal S1x1024 .f32) (p : Fin 64) (j : Fin 1024) :
    broadcastTo S64x1024 (shapeCast S1x1024 x2 shapeCasts_S1x1024_S1x1024) broadcasts_S1x1024_S64x1024 (ix2 p j) = x2 (ix2 0 j) := by
  rw [shapeCast_self]
  exact broadcastTo_apply x2 broadcasts_S1x1024_S64x1024 (ix2 p j) (ix2 0 j) (fun a => by
    match a with
    | ⟨0, _⟩ => rfl
    | ⟨1, _⟩ => rfl)

/-- The class biases, one row, repeated down the 64 batch rows. -/
theorem class_bias_rows_apply (x4 : Vec Ideal S1x10 .f32) (p : Fin 64) (q : Fin 10) :
    broadcastTo S64x10 (shapeCast S1x10 x4 shapeCasts_S1x10_S1x10) broadcasts_S1x10_S64x10 (ix2 p q) = x4 (ix2 0 q) := by
  rw [shapeCast_self]
  exact broadcastTo_apply x4 broadcasts_S1x10_S64x10 (ix2 p q) (ix2 0 q) (fun a => by
    match a with
    | ⟨0, _⟩ => rfl
    | ⟨1, _⟩ => rfl)

/-! ## The payloads -/

/-- One block's contribution to entry (p, q). -/
def contrib (x1 : Vec Ideal S2097152 .f32) (x0 : Vec Ideal S64x2048 .f32) (x2 : Vec Ideal S1x1024 .f32) (x3 : Vec Ideal S10x1024 .f32)
    (p : Fin 64) (q : Fin 10) : EReal :=
  ∑ j : Fin 1024, max ((∑ k : Fin 2048, x0 (ix2 p k) * x1 (ix1 (bpos j k))) + x2 (ix2 0 j)) (Ideal.ofBits .f32 0x00000000#32) * x3 (ix2 q j)

theorem pay1_apply (x1 : Vec Ideal S2097152 .f32) (x0 : Vec Ideal S64x2048 .f32) (x2 : Vec Ideal S1x1024 .f32) (x3 : Vec Ideal S10x1024 .f32)
    (p : Fin 64) (q : Fin 10) : k0_pay1 (F := Ideal) x1 x0 x2 x3 (ix2 p q) = contrib x1 x0 x2 x3 p q := by
  unfold k0_pay1 contrib
  refine (class_mm _ _ p q).trans ?_
  refine Finset.sum_congr rfl fun j _ => ?_
  refine congrArg (· * x3 (ix2 q j)) ?_
  show max (matmul dot_S64x2048_S1024x2048_S64x1024_1_1_0_0_n_n none x0 (shapeCast S1024x2048 x1 shapeCasts_S2097152_S1024x2048) (constant (F := Ideal) S64x1024 .f32 0x00000000#32) (ix2 p j)
      + broadcastTo S64x1024 (shapeCast S1x1024 x2 shapeCasts_S1x1024_S1x1024) broadcasts_S1x1024_S64x1024 (ix2 p j)) (Ideal.ofBits .f32 0x00000000#32) = _
  rw [hidden_mm, bias_rows_apply]
  refine congrArg (fun z => max (z + x2 (ix2 0 j)) (Ideal.ofBits .f32 0x00000000#32)) ?_
  exact Finset.sum_congr rfl fun k _ => by rw [relaid_apply]

/-- The first point's store at entry (p, q): the block's contribution plus the class's bias. -/
theorem pay2_apply (x1 : Vec Ideal S2097152 .f32) (x0 : Vec Ideal S64x2048 .f32) (x2 : Vec Ideal S1x1024 .f32) (x3 : Vec Ideal S10x1024 .f32)
    (x4 : Vec Ideal S1x10 .f32) (p : Fin 64) (q : Fin 10) :
    k0_pay2 (F := Ideal) x1 x0 x2 x3 x4 (ix2 p q) = contrib x1 x0 x2 x3 p q + x4 (ix2 0 q) := by
  unfold k0_pay2
  show k0_pay1 (F := Ideal) x1 x0 x2 x3 (ix2 p q) + broadcastTo S64x10 (shapeCast S1x10 x4 shapeCasts_S1x10_S1x10) broadcasts_S1x10_S64x10 (ix2 p q) = _
  rw [pay1_apply, class_bias_rows_apply]

/-- A later point's store at entry (p, q): what was there plus the block's contribution. -/
theorem pay3_apply (x1 : Vec Ideal S2097152 .f32) (x0 : Vec Ideal S64x2048 .f32) (x2 : Vec Ideal S1x1024 .f32) (x3 : Vec Ideal S10x1024 .f32)
    (xo : Vec Ideal S64x10 .f32) (p : Fin 64) (q : Fin 10) :
    k0_pay3 (F := Ideal) x1 x0 x2 x3 xo (ix2 p q) = xo (ix2 p q) + contrib x1 x0 x2 x3 p q := by
  unfold k0_pay3
  show shapeCast S64x10 xo shapeCasts_S64x10_S64x10 (ix2 p q) + k0_pay1 (F := Ideal) x1 x0 x2 x3 (ix2 p q) = _
  rw [shapeCast_self, pay1_apply]

end Cert.KernelIdeal.Pay

end
-- ==== Proof.Spec.lean ====
import Idealize.ShloMosaic.PureOps.Ideal
import Idealize.ShloMosaic.PureOps.Ideal.Laws
import Idealize.ShloMosaic.Lib.ValueIdx

/-!
# The function both programs compute

A two-layer perceptron on a batch of 64 rows: a hidden layer of 8192 units over 2048 inputs, a rectifier, and
an output layer of 10 classes. The hidden layer's weights come as ONE flat list of 8192 · 2048 numbers, unit
`h`'s weights being the 2048 consecutive entries from position `h · 2048` on.

    hid p h = max (∑ k, x p k · v (h · 2048 + k) + b h) 0
    out p q = ∑ h, hid p h · w q h + c q

over the extended reals. Stated here over literal shapes, with no program in sight; the kernel's side and
the reference's side are each proved equal to `out`.
-/

noncomputable section

open scoped BigOperators

namespace Cert.Spec

open Idealize.ShloMosaic Idealize.ShloMosaic.ValueIdx

/-- Where hidden unit `h`'s weight for input `k` sits in the flat list of weights: row `h` of 2048 entries. -/
def wpos (h : Fin 8192) (k : Fin 2048) : Fin 16777216 :=
  ⟨h.val * 2048 + k.val, by have := h.isLt; have := k.isLt; omega⟩

/-- Hidden unit `h` on batch row `p`: the rectified affine form of the row. -/
def hid (x : (⟨2, ![64, 2048]⟩ : Shape).Idx → EReal) (v : (⟨1, ![16777216]⟩ : Shape).Idx → EReal)
    (b : (⟨1, ![8192]⟩ : Shape).Idx → EReal) (p : Fin 64) (h : Fin 8192) : EReal :=
  max ((∑ k : Fin 2048, x (ix2 p k) * v (ix1 (wpos h k))) + b (ix1 h)) (Ideal.ofBits .f32 0x00000000#32)

/-- The network's output: for batch row `i 0` and class `i 1`, the hidden units weighted by the class's row of the
    second layer, plus the class's bias. -/
def out (x : (⟨2, ![64, 2048]⟩ : Shape).Idx → EReal) (v : (⟨1, ![16777216]⟩ : Shape).Idx → EReal)
    (b : (⟨1, ![8192]⟩ : Shape).Idx → EReal) (w : (⟨2, ![10, 8192]⟩ : Shape).Idx → EReal)
    (c : (⟨1, ![10]⟩ : Shape).Idx → EReal) : (⟨2, ![64, 10]⟩ : Shape).Idx → EReal := fun i =>
  (∑ h : Fin 8192, hid x v b (i 0) h * w (ix2 (i 1) h)) + c (ix1 (i 1))

end Cert.Spec

end
-- ==== Proof.Blocks.lean ====
import Mathlib.Algebra.BigOperators.Fin
import Mathlib.Logic.Equiv.Fin.Basic

/-!
# Summing the hidden layer block by block

The 8192 hidden units are visited as eight consecutive blocks of 1024. A sum over all units is the sum over the
blocks of the blocks' sums, in any commutative monoid — so also on the extended reals, where only commutativity and
associativity of addition are available.
-/

open scoped BigOperators

namespace Cert.Blocks

/-- Hidden unit number `j` of block `t`. -/
def hpos (t : Fin 8) (j : Fin 1024) : Fin 8192 :=
  ⟨t.val * 1024 + j.val, by have := t.isLt; have := j.isLt; omega⟩

/-- A sum over the 8192 units, taken block by block. -/
theorem sum_blocks {M : Type*} [AddCommMonoid M] (f : Fin 8192 → M) :
    ∑ h : Fin 8192, f h = ∑ t : Fin 8, ∑ j : Fin 1024, f (hpos t j) := by
  rw [← Fintype.sum_prod_type']
  refine (Fintype.sum_equiv (finProdFinEquiv (m := 8) (n := 1024)) (fun x => f (hpos x.1 x.2)) f (fun x => ?_)).symm
  refine congrArg f (Fin.ext ?_)
  show x.1.val * 1024 + x.2.val = x.2.val + 1024 * x.1.val
  omega

end Cert.Blocks
-- ==== Proof.KernelValue.lean ====
import proofs.«103174_g51470888075730_cont_8to1_c_646_16_alg».proof.Proof.BodyIdeal
import proofs.«103174_g51470888075730_cont_8to1_c_646_16_alg».proof.Proof.PayIdeal
import proofs.«103174_g51470888075730_cont_8to1_c_646_16_alg».proof.Proof.Spec
import proofs.«103174_g51470888075730_cont_8to1_c_646_16_alg».proof.Proof.Blocks
import Idealize.ShloMosaic.Lib.StableHlo.Run
import Idealize.ShloMosaic.Lib.Pipeline.Value
import Idealize.ShloMosaic.Lib.ValueIdx

/-!
# What the idealized kernel leaves in its result array

Over the extended reals, entry (p, q) of the result array after the kernel's run is the specification's `out`:
each grid point's block of the flat weights, of the hidden biases and of the second layer's weights is read where it
sits in its argument array (the hidden and class biases through the one-row matrices the host prepares); a point's
contribution is then the specification's sum over that block's 1024 hidden units; the running total after the last
point is the eight contributions plus the class bias, regrouped by commutativity and associativity alone into the
sum over all 8192 units; and the one write-back, after the last point, covers the whole [64, 10] array.
-/

set_option maxRecDepth 16384

noncomputable section

open scoped BigOperators

namespace Cert.KernelIdeal.KValue

open Cert.KernelIdeal Cert.KernelIdeal.Gen Cert.KernelIdeal.Body Cert.KernelIdeal.Pay
open Idealize.ShloMosaic Idealize.ShloMosaic.TcCoe Idealize.ShloMosaic.ValueIdx Idealize.SL.Sem
open Idealize.ShloMosaic.Pipeline (Dat)
open Cert.Blocks (hpos)
open Cert.Spec (wpos)

variable (m : (ℓ : Loc nD τ sig) → Buf (Elt Ideal) ℓ) (ρ : Dev nD → PrngReg)

/-! ## Where each window's block sits at a grid point -/

/-- The index maps over the eight points: the batch, the class biases and the output are one block throughout; the
    flat weights, the hidden biases and the second layer's weights move one block per point. -/
theorem idx_facts : ∀ t : Fin cfg0.N, win0_0.index t (0 : Fin 2) = 0 ∧ win0_0.index t (1 : Fin 2) = 0
    ∧ win0_1.index t (0 : Fin 1) = t.val ∧ win0_2.index t (0 : Fin 2) = 0 ∧ win0_2.index t (1 : Fin 2) = t.val
    ∧ win0_3.index t (0 : Fin 2) = 0 ∧ win0_3.index t (1 : Fin 2) = t.val ∧ win0_4.index t (0 : Fin 2) = 0
    ∧ win0_4.index t (1 : Fin 2) = 0 ∧ win0_5.index t (0 : Fin 2) = 0 ∧ win0_5.index t (1 : Fin 2) = 0 :=
  (by decide +kernel : ∀ t : Fin grid0.N, win0_0.index t (0 : Fin 2) = 0 ∧ win0_0.index t (1 : Fin 2) = 0
    ∧ win0_1.index t (0 : Fin 1) = t.val ∧ win0_2.index t (0 : Fin 2) = 0 ∧ win0_2.index t (1 : Fin 2) = t.val
    ∧ win0_3.index t (0 : Fin 2) = 0 ∧ win0_3.index t (1 : Fin 2) = t.val ∧ win0_4.index t (0 : Fin 2) = 0
    ∧ win0_4.index t (1 : Fin 2) = 0 ∧ win0_5.index t (0 : Fin 2) = 0 ∧ win0_5.index t (1 : Fin 2) = 0)

/-! ## The two arrays the host prepares: the bias vectors as one-row matrices -/

theorem bias_row (c : Dev nD) : (V m c main_v0 : S1x8192.Idx → EReal)
    = shapeCast S1x8192 (m ((c : Thread nD τ).loc main_arg2)) shapeCasts_S8192_S1x8192 := by
  dsimp only [Gen.V, Gen.hostOps0]; after_results; rfl

theorem class_bias_row (c : Dev nD) : (V m c main_v1 : S1x10.Idx → EReal)
    = shapeCast S1x10 (m ((c : Thread nD τ).loc main_arg4)) shapeCasts_S10_S1x10 := by
  dsimp only [Gen.V, Gen.hostOps0]; after_results; rfl

theorem bias_row_apply (c : Dev nD) (h : Fin 8192) :
    V m c main_v0 (ix2 (0 : Fin 1) h) = m ((c : Thread nD τ).loc main_arg2) (ix1 h) := by
  rw [bias_row]
  exact shapeCast_apply _ shapeCasts_S8192_S1x8192 (ix2 (0 : Fin 1) h) (ix1 h) (by
    rw [Shape.rowMajor_val_one, Shape.rowMajor_val_two]; show h.val = 0 * 8192 + h.val; omega)

theorem class_bias_row_apply (c : Dev nD) (q : Fin 10) :
    V m c main_v1 (ix2 (0 : Fin 1) q) = m ((c : Thread nD τ).loc main_arg4) (ix1 q) := by
  rw [class_bias_row]
  exact shapeCast_apply _ shapeCasts_S10_S1x10 (ix2 (0 : Fin 1) q) (ix1 q) (by
    rw [Shape.rowMajor_val_one, Shape.rowMajor_val_two]; show q.val = 0 * 10 + q.val; omega)

/-! ## Each block read where it sits in its array -/

/-- A grid point as a block number below eight. -/
def blockNo (t : Fin cfg0.N) : Fin 8 := ⟨t.val, lt_of_lt_of_eq t.isLt N_0⟩

/-- The batch is staged whole at every point. -/
theorem batch_blk (c : Dev nD) (t : Fin cfg0.N) (p : Fin 64) (k : Fin 2048) :
    iblk m c 0 t (ix2 p k) = m ((c : Thread nD τ).loc main_arg0) (ix2 p k) := by
  obtain ⟨e00, e01, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 64 + 1 * p.val = p.val; omega
  | ⟨1, _⟩ => show win0_0.index t (1 : Fin 2) * 2048 + 1 * k.val = k.val; omega

/-- Point `t`'s block of the flat weights holds the rows of hidden units `t · 1024 …`: entry `j · 2048 + k` of the
    block is unit `t · 1024 + j`'s weight for input `k`. -/
theorem weights_blk (c : Dev nD) (t : Fin cfg0.N) (j : Fin 1024) (k : Fin 2048) :
    iblk m c 1 t (ix1 (bpos j k)) = m ((c : Thread nD τ).loc main_arg1) (ix1 (wpos (hpos (blockNo t) j) k)) := by
  obtain ⟨-, -, e1, -⟩ := idx_facts t
  show V m c main_arg1 (((cfg0.win 1).blk t).view.emb (ix1 (bpos j k))) = _
  rw [V_main_arg1]
  refine congrArg _ (funext fun a => Fin.ext ?_)
  match a with
  | ⟨0, _⟩ => show win0_1.index t (0 : Fin 1) * 2097152 + 1 * (j.val * 2048 + k.val) = (t.val * 1024 + j.val) * 2048 + k.val; omega

/-- Point `t`'s block of the hidden biases: the biases of units `t · 1024 …`. -/
theorem bias_blk (c : Dev nD) (t : Fin cfg0.N) (j : Fin 1024) :
    iblk m c 2 t (ix2 (0 : Fin 1) j) = m ((c : Thread nD τ).loc main_arg2) (ix1 (hpos (blockNo t) j)) := by
  obtain ⟨-, -, -, e20, e21, -⟩ := idx_facts t
  show V m c main_v0 (((cfg0.win 2).blk t).view.emb (ix2 (0 : Fin 1) j)) = _
  have e : ((cfg0.win 2).blk t).view.emb (ix2 (0 : Fin 1) j) = ix2 (0 : Fin 1) (hpos (blockNo t) j) := funext fun a => Fin.ext (by
    match a with
    | ⟨0, _⟩ => show win0_2.index t (0 : Fin 2) * 1 + 1 * 0 = 0; omega
    | ⟨1, _⟩ => show win0_2.index t (1 : Fin 2) * 1024 + 1 * j.val = t.val * 1024 + j.val; omega)
  rw [e, bias_row_apply]

/-- Point `t`'s block of the second layer: every class's weights for units `t · 1024 …`. -/
theorem class_weights_blk (c : Dev nD) (t : Fin cfg0.N) (q : Fin 10) (j : Fin 1024) :
    iblk m c 3 t (ix2 q j) = m ((c : Thread nD τ).loc main_arg3) (ix2 q (hpos (blockNo t) j)) := by
  obtain ⟨-, -, -, -, -, e30, e31, -⟩ := idx_facts t
  show V m c main_arg3 (((cfg0.win 3).blk t).view.emb (ix2 q j)) = _
  rw [V_main_arg3]
  refine congrArg _ (funext fun a => Fin.ext ?_)
  match a with
  | ⟨0, _⟩ => show win0_3.index t (0 : Fin 2) * 10 + 1 * q.val = q.val; omega
  | ⟨1, _⟩ => show win0_3.index t (1 : Fin 2) * 1024 + 1 * j.val = t.val * 1024 + j.val; omega

/-- The class biases are staged whole at every point. -/
theorem class_bias_blk (c : Dev nD) (t : Fin cfg0.N) (q : Fin 10) :
    iblk m c 4 t (ix2 (0 : Fin 1) q) = m ((c : Thread nD τ).loc main_arg4) (ix1 q) := by
  obtain ⟨-, -, -, -, -, -, -, e40, e41, -⟩ := idx_facts t
  show V m c main_v1 (((cfg0.win 4).blk t).view.emb (ix2 (0 : Fin 1) q)) = _
  have e : ((cfg0.win 4).blk t).view.emb (ix2 (0 : Fin 1) q) = ix2 (0 : Fin 1) q := funext fun a => Fin.ext (by
    match a with
    | ⟨0, _⟩ => show win0_4.index t (0 : Fin 2) * 1 + 1 * 0 = 0; omega
    | ⟨1, _⟩ => show win0_4.index t (1 : Fin 2) * 10 + 1 * q.val = q.val; omega)
  rw [e, class_bias_row_apply]

/-! ## One point's contribution, in the specification's terms -/

/-- At point `t` the body's contribution to entry (p, q) is the specification's sum over the hidden units of block `t`. -/
theorem contrib_blk (c : Dev nD) (t : Fin cfg0.N) (p : Fin 64) (q : Fin 10) :
    contrib (iblk m c 1 t) (iblk m c 0 t) (iblk m c 2 t) (iblk m c 3 t) p q
      = ∑ j : Fin 1024, Cert.Spec.hid (m ((c : Thread nD τ).loc main_arg0)) (m ((c : Thread nD τ).loc main_arg1)) (m ((c : Thread nD τ).loc main_arg2)) p (hpos (blockNo t) j)
          * m ((c : Thread nD τ).loc main_arg3) (ix2 q (hpos (blockNo t) j)) := by
  unfold contrib Cert.Spec.hid
  refine Finset.sum_congr rfl fun j _ => ?_
  rw [bias_blk, class_weights_blk]
  refine congrArg (fun z => max (z + m ((c : Thread nD τ).loc main_arg2) (ix1 (hpos (blockNo t) j))) (Ideal.ofBits .f32 0x00000000#32)
    * m ((c : Thread nD τ).loc main_arg3) (ix2 q (hpos (blockNo t) j))) ?_
  exact Finset.sum_congr rfl fun k _ => by rw [batch_blk, weights_blk]

/-! ## The running total, entry by entry -/

/-- Position `s`'s contribution to entry (p, q); nothing past the grid. -/
def part (c : Dev nD) (p : Fin 64) (q : Fin 10) (s : ℕ) : EReal :=
  if h : s < cfg0.N then contrib (iblk m c 1 ⟨s, h⟩) (iblk m c 0 ⟨s, h⟩) (iblk m c 2 ⟨s, h⟩) (iblk m c 3 ⟨s, h⟩) p q else 0

/-- After position `n` the output buffer's entry (p, q) is the contributions so far plus the class's bias: addition
    on the extended reals is commutative and associative, which is all the regrouping needs. -/
theorem acc_apply (c : Dev nD) (p : Fin 64) (q : Fin 10) : ∀ (n : ℕ) (hn : n < cfg0.N),
    acc m c n hn (ix2 p q) = (∑ s ∈ Finset.range (n + 1), part m c p q s) + m ((c : Thread nD τ).loc main_arg4) (ix1 q)
  | 0, hn => by
    show k0_pay2 (F := Ideal) (iblk m c 1 ⟨0, hn⟩) (iblk m c 0 ⟨0, hn⟩) (iblk m c 2 ⟨0, hn⟩) (iblk m c 3 ⟨0, hn⟩) (iblk m c 4 ⟨0, hn⟩) (ix2 p q) = _
    refine (pay2_apply _ _ _ _ _ p q).trans ?_
    rw [class_bias_blk, Finset.sum_range_one]
    unfold part; rw [dif_pos hn]
  | n + 1, hn => by
    show k0_pay3 (F := Ideal) (iblk m c 1 ⟨n + 1, hn⟩) (iblk m c 0 ⟨n + 1, hn⟩) (iblk m c 2 ⟨n + 1, hn⟩) (iblk m c 3 ⟨n + 1, hn⟩)
      (acc m c n (Nat.lt_of_succ_lt hn)) (ix2 p q) = _
    refine (pay3_apply _ _ _ _ _ p q).trans ?_
    have hp : part m c p q (n + 1) = contrib (iblk m c 1 ⟨n + 1, hn⟩) (iblk m c 0 ⟨n + 1, hn⟩) (iblk m c 2 ⟨n + 1, hn⟩) (iblk m c 3 ⟨n + 1, hn⟩) p q := by
      unfold part; rw [dif_pos hn]
    rw [acc_apply c p q n (Nat.lt_of_succ_lt hn), Finset.sum_range_succ _ (n + 1), hp]
    exact add_right_comm _ _ _

theorem last_lt : 7 < cfg0.N := by have h : cfg0.N = 8 := N_0; omega

/-- After the last point the output buffer holds the network's output. -/
theorem total (c : Dev nD) (p : Fin 64) (q : Fin 10) :
    acc m c 7 last_lt (ix2 p q) = Cert.Spec.out (m ((c : Thread nD τ).loc main_arg0)) (m ((c : Thread nD τ).loc main_arg1))
      (m ((c : Thread nD τ).loc main_arg2)) (m ((c : Thread nD τ).loc main_arg3)) (m ((c : Thread nD τ).loc main_arg4)) (ix2 p q) := by
  rw [acc_apply]
  unfold Cert.Spec.out
  show _ = (∑ h : Fin 8192, Cert.Spec.hid (m ((c : Thread nD τ).loc main_arg0)) (m ((c : Thread nD τ).loc main_arg1)) (m ((c : Thread nD τ).loc main_arg2)) p h
      * m ((c : Thread nD τ).loc main_arg3) (ix2 q h)) + m ((c : Thread nD τ).loc main_arg4) (ix1 q)
  rw [Cert.Blocks.sum_blocks]
  refine congrArg (· + m ((c : Thread nD τ).loc main_arg4) (ix1 q)) ?_
  rw [← Fin.sum_univ_eq_sum_range (fun s => part m c p q s) 8]
  refine Finset.sum_congr rfl fun t _ => ?_
  have ht : t.val < cfg0.N := by have h : cfg0.N = 8 := N_0; have h' := t.isLt; omega
  unfold part; rw [dif_pos ht]
  exact contrib_blk m c ⟨t.val, ht⟩ p q

/-! ## The result array after the run -/

/-- The output block is the whole result array and is written back once, after the last point: the array ends
    holding the last running total. -/
theorem final (c : Dev nD) : (dats m 0 c).arrAt 5 cfg0.N = acc m c 7 last_lt := by
  refine (dats m 0 c).arrAt_eq_of_cover 5 (acc m c 7 last_lt) (fun t hf => ?_) (fun i => ?_)
  · have h7 : t.val = 7 := by
      have h1 := (flush0_5 t).mp hf
      have h2 : t.val < 8 := lt_of_lt_of_eq t.isLt N_0
      omega
    obtain ⟨n, hn⟩ := t
    dsimp only at h7
    subst h7
    obtain ⟨-, -, -, -, -, -, -, -, -, e50, e51⟩ := idx_facts ⟨7, hn⟩
    show (cfg0.win 5).cut (grid0.coords ⟨7, hn⟩) ((dats m 0 c).after 5 ⟨7, hn⟩) = _
    rw [after5]
    funext j
    show acc m c 7 hn j = acc m c 7 last_lt (((cfg0.win 5).blk ⟨7, hn⟩).view.emb j)
    refine congrArg _ (funext fun a => Fin.ext ?_)
    match a with
    | ⟨0, _⟩ => show (j 0).val = win0_5.index ⟨7, hn⟩ (0 : Fin 2) * 64 + 1 * (j 0).val; omega
    | ⟨1, _⟩ => show (j 1).val = win0_5.index ⟨7, hn⟩ (1 : Fin 2) * 10 + 1 * (j 1).val; omega
  · obtain ⟨-, -, -, -, -, -, -, -, -, e50, e51⟩ := idx_facts ⟨7, last_lt⟩
    refine ⟨⟨7, last_lt⟩, (flush0_5 _).mpr rfl, ?_⟩
    show i ∈ ((View.whole main_v2).slice (win0_5.rect ⟨7, last_lt⟩)).set
    rw [View.set_slice_whole, Rect.mem_set_unit]
    intro a
    match a with
    | ⟨0, _⟩ =>
      show win0_5.index ⟨7, last_lt⟩ (0 : Fin 2) * 64 ≤ (i 0).val ∧ (i 0).val < win0_5.index ⟨7, last_lt⟩ (0 : Fin 2) * 64 + 64
      have hi : (i 0).val < 64 := (i 0).isLt
      omega
    | ⟨1, _⟩ =>
      show win0_5.index ⟨7, last_lt⟩ (1 : Fin 2) * 10 ≤ (i 1).val ∧ (i 1).val < win0_5.index ⟨7, last_lt⟩ (1 : Fin 2) * 10 + 10
      have hi : (i 1).val < 10 := (i 1).isLt
      omega

/-! ## The run, read -/

/-- Every execution of the idealized kernel terminates with the result array holding the network's output of the
    argument arrays, and the arguments unchanged. -/
theorem run : θ_run defs (onTc (τ := τ) (main (F := Ideal))) ⟨m, fun _ => 0, ρ⟩ fun r => ∀ c : Dev nD,
      r.2.mem ((c.tc : Thread nD τ).loc main_v2) = Cert.Spec.out (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans ((final m c).trans (funext fun i => by
        obtain ⟨p, q, rfl⟩ : ∃ (p : Fin 64) (q : Fin 10), i = ix2 p q := ⟨i 0, i 1, eq_ix2 i⟩
        exact total m c p q)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c)⟩)
    (run_main m ρ)

end Cert.KernelIdeal.KValue

end
-- ==== Proof.LibScatterSet.lean ====
import Idealize.ShloMosaic.PureOps

/-!
# A scatter whose body returns the update, read at one position

`Host.scatter d f x idx upd` walks the update indices in row-major order; each update index `j` whose result
index `d.resultIdx? j idx` is some position `i` replaces the element at `i` by `f (old element) (upd j)`, and an
update index with no result index changes nothing. When the body is `fun _ b => b` the element at `i` after the
walk is the update of the LAST update index landing on `i`, or the operand's element when none lands there. So:

* `scatter_set_apply_of_no_hit`: no update index lands on `i` — the result at `i` is the operand's `x i`;
* `scatter_set_apply`: some update index `j₀` lands on `i`, and every update index landing on `i` carries the
  value `upd j₀` — the result at `i` is `upd j₀`;
* `scatter_set_apply_of_unique`: `j₀` is the only update index landing on `i` — the same conclusion.

Nothing here depends on the shapes, on the dimension numbers or on the element type.
-/

namespace Cert.LibScatterSet

open Idealize.ShloMosaic

variable {s si u : Shape} {α : Type} {w : Nat}

/-- One step of the walk: update index number `n` (in row-major order) overwrites the position it lands on, if
    it lands on one. -/
def step (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

/-- The scatter whose body returns the update is the walk of `step` over all update index numbers. -/
theorem scatter_eq_foldl_step (d : ScatterDims s si u) (x : s.Idx → α) (idx : IVec si w) (upd : u.Idx → α) :
    Host.scatter d (fun _ b => b) x idx upd = (List.finRange u.numel).foldl (step d idx upd) x := rfl

/-- A step that lands on `i` leaves its update there. -/
theorem step_hit (d : ScatterDims s si u) (idx : IVec si w) (upd : u.Idx → α) (r : s.Idx → α) (n : Fin u.numel)
    (i : s.Idx) (h : d.resultIdx? (u.rowMajor.symm n) idx = some i) :
    step d idx upd r n i = upd (u.rowMajor.symm n) := by
  unfold step
  rw [h]
  exact if_pos rfl

/-- A step that does not land on `i` leaves the element at `i` as it was. -/
theorem step_miss (d : ScatterDims s si u) (idx : IVec si w) (upd : u.Idx → α) (r : s.Idx → α) (n : Fin u.numel)
    (i : s.Idx) (h : d.resultIdx? (u.rowMajor.symm n) idx ≠ some i) :
    step d idx upd r n i = r i := by
  unfold step
  generalize d.resultIdx? (u.rowMajor.symm n) idx = o at h ⊢
  cases o with
  | none => rfl
  | some i0 =>
    have e : ¬ i = i0 := fun e => h (by rw [e])
    exact if_neg e

/-- A walk none of whose steps lands on `i` leaves the element at `i` as it was. -/
theorem foldl_step_of_no_hit (d : ScatterDims s si u) (idx : IVec si w) (upd : u.Idx → α)
    (l : List (Fin u.numel)) (r : s.Idx → α) (i : s.Idx)
    (h : ∀ n ∈ l, d.resultIdx? (u.rowMajor.symm n) idx ≠ some i) :
    l.foldl (step d idx upd) r i = r i := by
  induction l generalizing r with
  | nil => rfl
  | cons n l ih =>
    rw [List.foldl_cons, ih _ (fun m hm => h m (List.mem_cons_of_mem _ hm)),
      step_miss d idx upd r n i (h n List.mem_cons_self)]

/-- A walk with a step landing on `i`, all of whose steps landing on `i` carry the value `v`, leaves `v` at `i`:
    the last such step decides, and it carries `v`. -/
theorem foldl_step_of_hit (d : ScatterDims s si u) (idx : IVec si w) (upd : u.Idx → α)
    (l : List (Fin u.numel)) (r : s.Idx → α) (i : s.Idx) (v : α)
    (hv : ∀ n ∈ l, d.resultIdx? (u.rowMajor.symm n) idx = some i → upd (u.rowMajor.symm n) = v)
    (hex : ∃ n ∈ l, d.resultIdx? (u.rowMajor.symm n) idx = some i) :
    l.foldl (step d idx upd) r i = v := by
  induction l generalizing r with
  | nil => obtain ⟨n, hn, _⟩ := hex; cases hn
  | cons n l ih =>
    rw [List.foldl_cons]
    by_cases hl : ∃ m ∈ l, d.resultIdx? (u.rowMajor.symm m) idx = some i
    · exact ih _ (fun m hm => hv m (List.mem_cons_of_mem _ hm)) hl
    · have hno : ∀ m ∈ l, d.resultIdx? (u.rowMajor.symm m) idx ≠ some i := fun m hm e => hl ⟨m, hm, e⟩
      rw [foldl_step_of_no_hit d idx upd l _ i hno]
      obtain ⟨m, hm, e⟩ := hex
      rcases List.mem_cons.1 hm with rfl | hm'
      · rw [step_hit d idx upd r m i e]; exact hv m List.mem_cons_self e
      · exact absurd e (hno m hm')

/-- No update index lands on `i`: the scatter leaves the operand's element there. -/
theorem scatter_set_apply_of_no_hit (d : ScatterDims s si u) (x : s.Idx → α) (idx : IVec si w) (upd : u.Idx → α)
    (i : s.Idx) (h : ∀ j, d.resultIdx? j idx ≠ some i) :
    Host.scatter d (fun _ b => b) x idx upd i = x i := by
  rw [scatter_eq_foldl_step]
  exact foldl_step_of_no_hit d idx upd _ x i (fun n _ => h _)

/-- Update index `j₀` lands on `i`, and every update index landing on `i` carries `upd j₀`: the scatter whose body
    returns the update has `upd j₀` at `i`. -/
theorem scatter_set_apply (d : ScatterDims s si u) (x : s.Idx → α) (idx : IVec si w) (upd : u.Idx → α)
    (i : s.Idx) (j₀ : u.Idx) (h₀ : d.resultIdx? j₀ idx = some i)
    (hall : ∀ j, d.resultIdx? j idx = some i → upd j = upd j₀) :
    Host.scatter d (fun _ b => b) x idx upd i = upd j₀ := by
  rw [scatter_eq_foldl_step]
  refine foldl_step_of_hit d idx upd _ x i (upd j₀) (fun n _ e => hall _ e) ⟨u.rowMajor j₀, List.mem_finRange _, ?_⟩
  rw [Equiv.symm_apply_apply]; exact h₀

/-- Update index `j₀` is the only one landing on `i`: the scatter whose body returns the update has `upd j₀` at `i`. -/
theorem scatter_set_apply_of_unique (d : ScatterDims s si u) (x : s.Idx → α) (idx : IVec si w) (upd : u.Idx → α)
    (i : s.Idx) (j₀ : u.Idx) (h₀ : d.resultIdx? j₀ idx = some i)
    (huniq : ∀ j, d.resultIdx? j idx = some i → j = j₀) :
    Host.scatter d (fun _ b => b) x idx upd i = upd j₀ :=
  scatter_set_apply d x idx upd i j₀ h₀ (fun j e => by rw [huniq j e])

end Cert.LibScatterSet
-- ==== Proof.RefWeights.lean ====
import proofs.«103174_g51470888075730_cont_8to1_c_646_16_alg».proof.Proof.Gen.ReferenceIdeal.Read
import proofs.«103174_g51470888075730_cont_8to1_c_646_16_alg».proof.Proof.Spec
import proofs.«103174_g51470888075730_cont_8to1_c_646_16_alg».proof.Proof.LibScatterSet
import Idealize.ShloMosaic.Lib.ValueIdx
import Idealize.ShloMosaic.Lib.Pipeline.Value

/-!
# The scattered weight matrix is the flat list of weights, re-laid in rows

The reference builds its 8192 × 2048 matrix of first-layer weights by writing entry `n` of the flat list of
8192 · 2048 weights at row `n / 2048`, column `n % 2048` of a matrix of zeros. Every position `(h, k)` is written
exactly once, by entry `h · 2048 + k`; so the matrix at `(h, k)` is the list at `h · 2048 + k`.
-/

noncomputable section

namespace Cert.ReferenceIdeal.RefValue

open Cert.ReferenceIdeal Cert.ReferenceIdeal.Gen Cert.ReferenceIdeal.Read Idealize.ShloMosaic Idealize.ShloMosaic.ValueIdx

variable {F : FTy → Type} [FloatOps F]

/-! ## Small numbers as 32-bit words -/

/-- A number below 2³¹, written as a 32-bit word and read back signed, is itself. -/
theorem toInt_ofNat_small (a : Nat) (h : a < 2 ^ 31) : (BitVec.ofNat 32 a).toInt = (a : Int) := by
  have h1 : (BitVec.ofNat 32 a).toNat = a := by
    rw [BitVec.toNat_ofNat]; exact Nat.mod_eq_of_lt (by omega)
  rw [BitVec.toInt_eq_toNat_of_lt (by rw [h1]; omega), h1]

/-- A number below 2³¹, as a 32-bit word, is not below zero in the signed order. -/
theorem slt_zero_small (a : Nat) (h : a < 2 ^ 31) : IntOp.cmpi .slt (BitVec.ofNat 32 a) 0#32 = 0#1 := by
  have h1 := toInt_ofNat_small a h
  have h2 : (BitVec.ofNat 32 a).slt 0#32 = false := by
    unfold BitVec.slt
    rw [h1, BitVec.toInt_zero]
    exact decide_eq_false (by omega)
  show BitVec.ofBool ((BitVec.ofNat 32 a).slt 0#32) = 0#1
  rw [h2]; rfl

/-! ## The two index columns -/

/-- The row column: entry `n` of the list goes to row `n / 2048`. -/
theorem row_col (n : Fin 16777216) : val_main_v12 (F := F) (ix1 n) = BitVec.ofNat 32 (n.val / 2048) := by
  have e2 : val_main_v2 (F := F) (ix1 n) = BitVec.ofNat 32 (n.val / 2048) := by
    rw [val_main_v2_apply, val_main_v1_apply, val_main_v0_apply]
  have e8 : val_main_v8 (F := F) (ix1 n) = 0#32 := by rw [val_main_v8_apply, val_main_c_apply]
  have hn := n.isLt
  rw [val_main_v12_apply, val_main_v9_apply, e2, e8, slt_zero_small _ (by omega), select_zero]

/-- The column column: entry `n` of the list goes to column `n % 2048`. -/
theorem col_col (n : Fin 16777216) : val_main_v17 (F := F) (ix1 n) = BitVec.ofNat 32 (n.val % 2048) := by
  have e6 : val_main_v6 (F := F) (ix1 n) = BitVec.ofNat 32 (n.val % 2048) := by
    rw [val_main_v6_apply, val_main_v5_apply, val_main_v4_apply, val_main_v3_apply]
    refine congrArg (BitVec.ofNat 32) ?_
    show 0 * 2048 + n.val % 2048 = n.val % 2048
    omega
  have e13 : val_main_v13 (F := F) (ix1 n) = 0#32 := by rw [val_main_v13_apply, val_main_c_1_apply]
  have hn := n.isLt
  rw [val_main_v17_apply, val_main_v14_apply, e6, e13, slt_zero_small _ (by omega), select_zero]

/-- The index table's first column at entry `n`: the row `n / 2048`. -/
theorem table_row (n : Fin 16777216) :
    val_main_v20 (F := F) (ix2 n (0 : Fin 2)) = BitVec.ofNat 32 (n.val / 2048) := by
  have e : val_main_v20 (F := F) (ix2 n (0 : Fin 2)) = val_main_v18 (F := F) (ix2 n (0 : Fin 1)) := by
    unfold val_main_v20
    exact concatenate_pair_apply_left (t := S16777216x2) (s₁ := S16777216x1) (s₂ := S16777216x1) 1 _ _ _
      (ix2 n (0 : Fin 2)) rfl (ix2 n (0 : Fin 1))
      (fun b => match b with | ⟨0, _⟩ => rfl | ⟨1, _⟩ => rfl)
  have ei : idx_main_v18 (ix2 n (0 : Fin 1)) = ix1 n := funext fun a => match a with | ⟨0, _⟩ => rfl
  rw [e, val_main_v18_apply, ei, row_col]

/-- The index table's second column at entry `n`: the column `n % 2048`. -/
theorem table_col (n : Fin 16777216) :
    val_main_v20 (F := F) (ix2 n (1 : Fin 2)) = BitVec.ofNat 32 (n.val % 2048) := by
  have e : val_main_v20 (F := F) (ix2 n (1 : Fin 2)) = val_main_v19 (F := F) (ix2 n (0 : Fin 1)) := by
    unfold val_main_v20
    exact concatenate_pair_apply_right (t := S16777216x2) (s₁ := S16777216x1) (s₂ := S16777216x1) 1 _ _ _
      (ix2 n (1 : Fin 2)) rfl rfl (ix2 n (0 : Fin 1))
      (fun b => match b with | ⟨0, _⟩ => fun _ => rfl | ⟨1, _⟩ => fun hb => absurd rfl hb) rfl
  have ei : idx_main_v19 (ix2 n (0 : Fin 1)) = ix1 n := funext fun a => match a with | ⟨0, _⟩ => rfl
  rw [e, val_main_v19_apply, ei, col_col]

/-! ## Where an entry of the list lands -/

/-- The scatter's dimension numbers: both axes of the matrix are indexed, the updates have no window axis. -/
abbrev wdims : ScatterDims S8192x2048 S16777216x2 S16777216 :=
  scatter_S8192x2048_S16777216x2_S16777216_n_01_01_1

/-- On the row axis the window of entry `n` starts at the table's first column at `n`, read signed. -/
theorem start_row (idx : IVec S16777216x2 32) (n : Fin 16777216) :
    wdims.start (ix1 n) idx 0 = (idx (ix2 n (0 : Fin 2))).toInt := by
  unfold ScatterDims.start
  rw [dif_pos (by decide)]
  refine congrArg (fun j => (idx j).toInt) (funext fun b => ?_)
  match b with
  | ⟨0, _⟩ => exact Fin.ext rfl
  | ⟨1, _⟩ => exact Fin.ext rfl

/-- On the column axis the window of entry `n` starts at the table's second column at `n`, read signed. -/
theorem start_col (idx : IVec S16777216x2 32) (n : Fin 16777216) :
    wdims.start (ix1 n) idx 1 = (idx (ix2 n (1 : Fin 2))).toInt := by
  unfold ScatterDims.start
  rw [dif_pos (by decide)]
  refine congrArg (fun j => (idx j).toInt) (funext fun b => ?_)
  match b with
  | ⟨0, _⟩ => exact Fin.ext rfl
  | ⟨1, _⟩ => exact Fin.ext rfl

/-- The updates have no window axis: the window coordinate is zero on both axes of the matrix. -/
theorem window_zero (j : S16777216.Idx) (a : Fin 2) : wdims.window j a = 0 := by
  have hno : ∀ b : Fin 2, b ∉ wdims.sKept := by decide
  unfold ScatterDims.window
  exact dif_neg (hno a)

/-- An entry whose table row reads `r < 8192` and `c < 2048` lands at row `r`, column `c`. -/
theorem resultIdx_of_table (idx : IVec S16777216x2 32) (n : Fin 16777216) (r c : Nat) (hr : r < 8192) (hc : c < 2048)
    (h0 : (idx (ix2 n (0 : Fin 2))).toInt = (r : Int)) (h1 : (idx (ix2 n (1 : Fin 2))).toInt = (c : Int)) :
    wdims.resultIdx? (ix1 n) idx = some (ix2 (⟨r, hr⟩ : Fin 8192) (⟨c, hc⟩ : Fin 2048)) := by
  have s0 := (start_row idx n).trans h0
  have s1 := (start_col idx n).trans h1
  have w0 := window_zero (ix1 n) 0
  have w1 := window_zero (ix1 n) 1
  have hb : ∀ a, 0 ≤ wdims.start (ix1 n) idx a + wdims.window (ix1 n) a ∧
      wdims.start (ix1 n) idx a + wdims.window (ix1 n) a < S8192x2048.size a := fun a =>
    match a with
    | ⟨0, _⟩ => by
      show 0 ≤ wdims.start (ix1 n) idx 0 + (wdims.window (ix1 n) 0 : Nat) ∧
        wdims.start (ix1 n) idx 0 + (wdims.window (ix1 n) 0 : Nat) < ((8192 : Nat) : Int)
      rw [s0, w0]; omega
    | ⟨1, _⟩ => by
      show 0 ≤ wdims.start (ix1 n) idx 1 + (wdims.window (ix1 n) 1 : Nat) ∧
        wdims.start (ix1 n) idx 1 + (wdims.window (ix1 n) 1 : Nat) < ((2048 : Nat) : Int)
      rw [s1, w1]; omega
  unfold ScatterDims.resultIdx?
  rw [dif_pos hb]
  refine congrArg some (funext fun a => ?_)
  match a with
  | ⟨0, _⟩ =>
    refine Fin.ext ?_
    show (wdims.start (ix1 n) idx 0 + (wdims.window (ix1 n) 0 : Nat)).toNat = r
    rw [s0, w0]; omega
  | ⟨1, _⟩ =>
    refine Fin.ext ?_
    show (wdims.start (ix1 n) idx 1 + (wdims.window (ix1 n) 1 : Nat)).toNat = c
    rw [s1, w1]; omega

/-- Entry `n` of the list lands at row `n / 2048`, column `n % 2048`. -/
theorem resultIdx_entry (n : Fin 16777216) :
    wdims.resultIdx? (ix1 n) (val_main_v20 (F := F))
      = some (ix2 (⟨n.val / 2048, by have := n.isLt; omega⟩ : Fin 8192) (⟨n.val % 2048, by omega⟩ : Fin 2048)) := by
  have hn := n.isLt
  exact resultIdx_of_table _ n _ _ _ _
    (by rw [table_row]; exact toInt_ofNat_small _ (by omega))
    (by rw [table_col]; exact toInt_ofNat_small _ (by omega))

/-! ## The matrix read at a position -/

/-- The scattered matrix at row `h`, column `k` is the flat list at `h · 2048 + k`. -/
theorem weights_apply (x1 : (⟨S16777216, .f32⟩ : BufTy).Contents (Elt F)) (h : Fin 8192) (k : Fin 2048) :
    val_main_v21 (F := F) x1 (ix2 h k) = x1 (ix1 (Cert.Spec.wpos h k)) := by
  have hh := h.isLt
  have hk := k.isLt
  unfold val_main_v21
  refine Cert.LibScatterSet.scatter_set_apply_of_unique wdims _ _ x1 (ix2 h k) (ix1 (Cert.Spec.wpos h k)) ?_ ?_
  · rw [resultIdx_entry]
    refine congrArg some ?_
    have e0 : (Cert.Spec.wpos h k).val / 2048 = h.val := by show (h.val * 2048 + k.val) / 2048 = h.val; omega
    have e1 : (Cert.Spec.wpos h k).val % 2048 = k.val := by show (h.val * 2048 + k.val) % 2048 = k.val; omega
    exact funext fun a => match a with
      | ⟨0, _⟩ => Fin.ext e0
      | ⟨1, _⟩ => Fin.ext e1
  · intro j hj
    obtain ⟨n, rfl⟩ : ∃ n : Fin 16777216, j = ix1 n := ⟨j 0, eq_ix1 j⟩
    rw [resultIdx_entry] at hj
    have hj' := Option.some.inj hj
    have e0 : n.val / 2048 = h.val := congrArg Fin.val (congrFun hj' 0)
    have e1 : n.val % 2048 = k.val := congrArg Fin.val (congrFun hj' 1)
    refine congrArg ix1 (Fin.ext ?_)
    show n.val = h.val * 2048 + k.val
    omega

end Cert.ReferenceIdeal.RefValue

end
-- ==== Proof.RefValue.lean ====
import proofs.«103174_g51470888075730_cont_8to1_c_646_16_alg».proof.Proof.Gen.ReferenceIdeal.Read
import proofs.«103174_g51470888075730_cont_8to1_c_646_16_alg».proof.Proof.Spec
import proofs.«103174_g51470888075730_cont_8to1_c_646_16_alg».proof.Proof.RefWeights
import Idealize.ShloMosaic.Lib.ValueIdx
import Idealize.ShloMosaic.Lib.Pipeline.Value
import Idealize.ShloMosaic.PureOps.Ideal.Laws

/-!
# The reference computes the two-layer perceptron

Read element by element over the extended reals, the reference's result at batch row `p` and class `q` is

    ∑ h, max (∑ k, x p k · W h k + b h) 0 · w q h + c q

with `W` the matrix of first-layer weights the reference assembles from the flat list; `W h k` is the list's
entry `h · 2048 + k`, so the result is the specification's `out`.
-/

noncomputable section

open scoped BigOperators

namespace Cert.ReferenceIdeal.RefValue

open Cert.ReferenceIdeal Cert.ReferenceIdeal.Gen Cert.ReferenceIdeal.Read Idealize.ShloMosaic Idealize.ShloMosaic.ValueIdx

/-- The hidden layer: the reference's rectified affine form at batch row `p`, hidden unit `h`. -/
theorem hidden_apply (x0 : (⟨S64x2048, .f32⟩ : BufTy).Contents (Elt Ideal))
    (x1 : (⟨S16777216, .f32⟩ : BufTy).Contents (Elt Ideal)) (x2 : (⟨S8192, .f32⟩ : BufTy).Contents (Elt Ideal))
    (p : Fin 64) (h : Fin 8192) :
    val_main_v28 (F := Ideal) x0 x1 x2 (ix2 p h) = Cert.Spec.hid x0 x1 x2 p h := by
  have eb : idx_main_v24 (idx_main_v25 (ix2 p h)) = ix1 h := funext fun a => match a with | ⟨0, _⟩ => rfl
  rw [val_main_v28_apply, val_main_v26_apply, val_main_v23_apply, val_main_v25_apply, val_main_v24_apply, eb,
    val_main_v27_apply, val_main_cst_3_apply, Ideal.maximumf_def, Ideal.addf_def, Ideal.ofBits_def]
  unfold Cert.Spec.hid
  refine congrArg (fun t => max (t + x2 (ix1 h)) (Ideal.ofBits .f32 0x00000000#32)) ?_
  refine Finset.sum_congr rfl fun k _ => ?_
  have el : lidx_main_v23 (ix2 p h) k = ix2 p k :=
    funext fun a => match a with | ⟨0, _⟩ => rfl | ⟨1, _⟩ => rfl
  have er : idx_main_v22 (ridx_main_v23 (ix2 p h) k) = ix2 h k :=
    funext fun a => match a with | ⟨0, _⟩ => rfl | ⟨1, _⟩ => rfl
  rw [val_main_v22_apply, el, er, weights_apply]

/-- The reference's result is the specification's output. -/
theorem ref_is_spec (x0 : (⟨S64x2048, .f32⟩ : BufTy).Contents (Elt Ideal))
    (x1 : (⟨S16777216, .f32⟩ : BufTy).Contents (Elt Ideal)) (x2 : (⟨S8192, .f32⟩ : BufTy).Contents (Elt Ideal))
    (x3 : (⟨S10x8192, .f32⟩ : BufTy).Contents (Elt Ideal)) (x4 : (⟨S10, .f32⟩ : BufTy).Contents (Elt Ideal)) :
    Cert.ReferenceIdeal.Read.val_main_v36 (F := Ideal) x0 x1 x2 x3 x4 = Cert.Spec.out x0 x1 x2 x3 x4 := by
  funext i
  obtain ⟨p, q, rfl⟩ : ∃ (p : Fin 64) (q : Fin 10), i = ix2 p q := ⟨i 0, i 1, eq_ix2 i⟩
  have ec : idx_main_v34 (idx_main_v35 (ix2 p q)) = ix1 q := funext fun a => match a with | ⟨0, _⟩ => rfl
  rw [val_main_v36_apply, val_main_v33_apply, val_main_v35_apply, val_main_v34_apply, ec, Ideal.addf_def]
  unfold Cert.Spec.out
  refine congrArg (fun t => t + x4 (ix1 q)) ?_
  refine Finset.sum_congr rfl fun h _ => ?_
  have el : lidx_main_v33 (ix2 p q) h = ix2 p h :=
    funext fun a => match a with | ⟨0, _⟩ => rfl | ⟨1, _⟩ => rfl
  have er : idx_main_v32 (ridx_main_v33 (ix2 p q) h) = ix2 q h :=
    funext fun a => match a with | ⟨0, _⟩ => rfl | ⟨1, _⟩ => rfl
  rw [val_main_v32_apply, el, er, hidden_apply]

end Cert.ReferenceIdeal.RefValue

end
-- ==== Proof.lean ====
/-
  The certificate's claim, assembled.

  The kernel computes a two-layer perceptron — out = max(x · Wᵀ + b, 0) · fwᵀ + fb with W the flat weight list read
  as an [8192, 2048] matrix — eight blocks of 1024 hidden units at a time, keeping one running [64, 10] total: the
  first block's contribution plus fb, then one block's contribution added per grid point. The reference builds W by
  scattering the list's entries to their (row, column) positions and applies the two products whole. Over the
  extended reals both are the specification's `out` (Proof/Spec.lean): the kernel's side because a sum over the
  8192 hidden units is the sum of its eight blocks' sums and addition is commutative and associative
  (Proof/KernelValue.lean over Proof/BodyIdeal.lean, Proof/PayIdeal.lean and Proof/Blocks.lean), the reference's
  because the scattered positions are pairwise distinct and fill the matrix (Proof/RefValue.lean over
  Proof/RefWeights.lean and Proof/LibScatterSet.lean). No finiteness of the inputs is used.

  The kernel's frames (termination, no fault, arguments unchanged) come from the same run of the pipelined body,
  proved once at any float instance (Proof/BodyBits.lean for the program as printed, Proof/BodyIdeal.lean for the
  idealized one); the reference's frame is its generated run with the result dropped; the idealization rewrote
  nothing, so there is nothing to preserve.
-/
import proofs.«103174_g51470888075730_cont_8to1_c_646_16_alg».proof.Defs
import proofs.«103174_g51470888075730_cont_8to1_c_646_16_alg».proof.Proof.Gen.Kernel
import proofs.«103174_g51470888075730_cont_8to1_c_646_16_alg».proof.Proof.Gen.KernelIdeal
import proofs.«103174_g51470888075730_cont_8to1_c_646_16_alg».proof.Proof.Gen.ReferenceIdeal
import proofs.«103174_g51470888075730_cont_8to1_c_646_16_alg».proof.Proof.Gen.Pre_finite_inputs
import proofs.«103174_g51470888075730_cont_8to1_c_646_16_alg».proof.Proof.Gen.ReferenceIdeal.Run
import proofs.«103174_g51470888075730_cont_8to1_c_646_16_alg».proof.Proof.Gen.ReferenceIdeal.Read
import proofs.«103174_g51470888075730_cont_8to1_c_646_16_alg».proof.Proof.BodyBits
import proofs.«103174_g51470888075730_cont_8to1_c_646_16_alg».proof.Proof.BodyIdeal
import proofs.«103174_g51470888075730_cont_8to1_c_646_16_alg».proof.Proof.KernelValue
import proofs.«103174_g51470888075730_cont_8to1_c_646_16_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs end with the specification's `out` of the
    arguments in their result arrays. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v36_eq _ _ _ _ _).trans (Cert.ReferenceIdeal.RefValue.ref_is_spec _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
